-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S50000x64 .f32) (main_arg1 : IVec S800000 32) (main_arg2 : IVec S800000 32) (main_arg3 : FVec F S64x64 .f32) (main_arg4 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S5000x64 : Shape := ⟨2, ![5000, 64]⟩
abbrev S5000x1 : Shape := ⟨2, ![5000, 1]⟩
abbrev S1 : Shape := ⟨1, ![1]⟩
abbrev S1x1 : Shape := ⟨2, ![1, 1]⟩
abbrev S800000x64 : Shape := ⟨2, ![800000, 64]⟩
abbrev S1x64 : Shape := ⟨2, ![1, 64]⟩

abbrev nBuf : Space → Nat
  | .hbm => 57
  | .vmem => 14
  | .smem => 0
  | _ => 0

abbrev bufTy : (tb : Table) → Fin (tcTables nBuf tb) → BufTy
  | .hbm, ⟨0, _⟩ => ⟨S50000x64, .f32⟩
  | .hbm, ⟨1, _⟩ => ⟨S800000, .i32⟩
  | .hbm, ⟨2, _⟩ => ⟨S800000, .i32⟩
  | .hbm, ⟨3, _⟩ => ⟨S64x64, .f32⟩
  | .hbm, ⟨4, _⟩ => ⟨S64, .f32⟩
  | .hbm, ⟨5, _⟩ => ⟨S_, .f32⟩
  | .hbm, ⟨6, _⟩ => ⟨S800000, .f32⟩
  | .hbm, ⟨7, _⟩ => ⟨S_, .f32⟩
  | .hbm, ⟨8, _⟩ => ⟨S50000, .f32⟩
  | .hbm, ⟨9, _⟩ => ⟨S800000x1, .i32⟩
  | .hbm, ⟨10, _⟩ => ⟨S50000, .f32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S50000, .f32⟩
  | .hbm, ⟨20, _⟩ => ⟨S_, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S50000x1, .f32⟩
  | .hbm, ⟨26, _⟩ => ⟨S50000x64, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S1, .i32⟩
  | .hbm, ⟨36, _⟩ => ⟨S_, .i32⟩
  | .hbm, ⟨37, _⟩ => ⟨S800000x1, .i32⟩
  | .hbm, ⟨38, _⟩ => ⟨S800000x1, .i1⟩
  | .hbm, ⟨39, _⟩ => ⟨S1x1, .i32⟩
  | .hbm, ⟨40, _⟩ => ⟨S800000x1, .i32⟩
  | .hbm, ⟨41, _⟩ => ⟨S800000x1, .i1⟩
  | .hbm, ⟨42, _⟩ => ⟨S800000x1, .i1⟩
  | .hbm, ⟨43, _⟩ => ⟨S_, .i1⟩
  | .hbm, ⟨44, _⟩ => ⟨S800000, .i1⟩
  | .hbm, ⟨45, _⟩ => ⟨S800000x64, .f32⟩
  | .hbm, ⟨46, _⟩ => ⟨S800000x64, .i1⟩
  | .hbm, ⟨47, _⟩ => ⟨S_, .f32⟩
  | .hbm, ⟨48, _⟩ => ⟨S800000x64, .f32⟩
  | .hbm, ⟨49, _⟩ => ⟨S800000x64, .f32⟩
  | .hbm, ⟨50, _⟩ => ⟨S_, .f32⟩
  | .hbm, ⟨51, _⟩ => ⟨S50000x64, .f32⟩
  | .hbm, ⟨52, _⟩ => ⟨S800000x1, .i32⟩
  | .hbm, ⟨53, _⟩ => ⟨S50000x64, .f32⟩
  | .hbm, ⟨54, _⟩ => ⟨S50000x1, .f32⟩
  | .hbm, ⟨55, _⟩ => ⟨S1x64, .f32⟩
  | .hbm, ⟨56, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x1, .f32⟩
  | .local _ .vmem, ⟨9, _⟩ => ⟨S5000x1, .f32⟩
  | .local _ .vmem, ⟨10, _⟩ => ⟨S64x64, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_call0_v0 : Ref sig .tc := ⟨.hbm, 16, rfl⟩
abbrev main_call0_v1 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_call1_v0 : Ref sig .tc := ⟨.hbm, 21, rfl⟩
abbrev main_call1_v1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_call2_c : Ref sig .tc := ⟨.hbm, 27, rfl⟩
abbrev main_call2_v0 : Ref sig .tc := ⟨.hbm, 28, rfl⟩
abbrev main_call2_v1 : Ref sig .tc := ⟨.hbm, 29, rfl⟩
abbrev main_call2_c_0 : Ref sig .tc := ⟨.hbm, 30, rfl⟩
abbrev main_call2_v2 : Ref sig .tc := ⟨.hbm, 31, rfl⟩
abbrev main_call2_v3 : Ref sig .tc := ⟨.hbm, 32, rfl⟩
abbrev main_call2_v4 : Ref sig .tc := ⟨.hbm, 33, rfl⟩
abbrev main_call2_v5 : Ref sig .tc := ⟨.hbm, 34, rfl⟩
abbrev main_call2_c_1 : Ref sig .tc := ⟨.hbm, 35, rfl⟩
abbrev main_call2_c_2 : Ref sig .tc := ⟨.hbm, 36, rfl⟩
abbrev main_call2_v6 : Ref sig .tc := ⟨.hbm, 37, rfl⟩
abbrev main_call2_v7 : Ref sig .tc := ⟨.hbm, 38, rfl⟩
abbrev main_call2_v8 : Ref sig .tc := ⟨.hbm, 39, rfl⟩
abbrev main_call2_v9 : Ref sig .tc := ⟨.hbm, 40, rfl⟩
abbrev main_call2_v10 : Ref sig .tc := ⟨.hbm, 41, rfl⟩
abbrev main_call2_v11 : Ref sig .tc := ⟨.hbm, 42, rfl⟩
abbrev main_call2_c_3 : Ref sig .tc := ⟨.hbm, 43, rfl⟩
abbrev main_call2_v12 : Ref sig .tc := ⟨.hbm, 44, rfl⟩
abbrev main_call2_v13 : Ref sig .tc := ⟨.hbm, 45, rfl⟩
abbrev main_call2_v14 : Ref sig .tc := ⟨.hbm, 46, rfl⟩
abbrev main_call2_cst : Ref sig .tc := ⟨.hbm, 47, rfl⟩
abbrev main_call2_v15 : Ref sig .tc := ⟨.hbm, 48, rfl⟩
abbrev main_v13 : Ref sig .tc := ⟨.hbm, 49, rfl⟩
abbrev main_cst_4 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S5000x64_S5000x64_0_0 : ∀ a, (![0, 0] : Fin 2 → Nat) a + S5000x64.size a ≤ S5000x64.size a
  h_S5000x64 : 0 < S5000x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S50000x64.size a
  hwx1_4 : ∀ i : grid1.Coords, EltTy.bits .f32 = 32 ∨ (Rect.block (s := S50000x64) S5000x64.size (cc1_transform_4 i) (hinb1_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v16) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v19) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1 : Shape := ⟨1, ![1]⟩
abbrev S1x1 : Shape := ⟨2, ![1, 1]⟩
abbrev S800000x64 : Shape := ⟨2, ![800000, 64]⟩
abbrev S1x64 : Shape := ⟨2, ![1, 64]⟩

abbrev nBuf : Space → Nat
  | .hbm => 62
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000, .i32⟩
  | .hbm, ⟨2, _⟩ => ⟨S800000, .i32⟩
  | .hbm, ⟨3, _⟩ => ⟨S64x64, .f32⟩
  | .hbm, ⟨4, _⟩ => ⟨S64, .f32⟩
  | .hbm, ⟨5, _⟩ => ⟨S_, .f32⟩
  | .hbm, ⟨6, _⟩ => ⟨S800000, .f32⟩
  | .hbm, ⟨7, _⟩ => ⟨S_, .f32⟩
  | .hbm, ⟨8, _⟩ => ⟨S50000, .f32⟩
  | .hbm, ⟨9, _⟩ => ⟨S800000x1, .i32⟩
  | .hbm, ⟨10, _⟩ => ⟨S50000, .f32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S50000, .f32⟩
  | .hbm, ⟨20, _⟩ => ⟨S_, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S50000x1, .f32⟩
  | .hbm, ⟨26, _⟩ => ⟨S50000x64, .f32⟩
  | .hbm, ⟨27, _⟩ => ⟨S50000x64, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S1, .i32⟩
  | .hbm, ⟨37, _⟩ => ⟨S_, .i32⟩
  | .hbm, ⟨38, _⟩ => ⟨S800000x1, .i32⟩
  | .hbm, ⟨39, _⟩ => ⟨S800000x1, .i1⟩
  | .hbm, ⟨40, _⟩ => ⟨S1x1, .i32⟩
  | .hbm, ⟨41, _⟩ => ⟨S800000x1, .i32⟩
  | .hbm, ⟨42, _⟩ => ⟨S800000x1, .i1⟩
  | .hbm, ⟨43, _⟩ => ⟨S800000x1, .i1⟩
  | .hbm, ⟨44, _⟩ => ⟨S_, .i1⟩
  | .hbm, ⟨45, _⟩ => ⟨S800000, .i1⟩
  | .hbm, ⟨46, _⟩ => ⟨S800000x64, .f32⟩
  | .hbm, ⟨47, _⟩ => ⟨S800000x64, .i1⟩
  | .hbm, ⟨48, _⟩ => ⟨S_, .f32⟩
  | .hbm, ⟨49, _⟩ => ⟨S800000x64, .f32⟩
  | .hbm, ⟨50, _⟩ => ⟨S800000x64, .f32⟩
  | .hbm, ⟨51, _⟩ => ⟨S_, .f32⟩
  | .hbm, ⟨52, _⟩ => ⟨S50000x64, .f32⟩
  | .hbm, ⟨53, _⟩ => ⟨S800000x1, .i32⟩
  | .hbm, ⟨54, _⟩ => ⟨S50000x64, .f32⟩
  | .hbm, ⟨55, _⟩ => ⟨S50000x1, .f32⟩
  | .hbm, ⟨56, _⟩ => ⟨S50000x64, .f32⟩
  | .hbm, ⟨57, _⟩ => ⟨S50000x64, .f32⟩
  | .hbm, ⟨58, _⟩ => ⟨S50000x64, .f32⟩
  | .hbm, ⟨59, _⟩ => ⟨S1x64, .f32⟩
  | .hbm, ⟨60, _⟩ => ⟨S50000x64, .f32⟩
  | .hbm, ⟨61, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_call0_v0 : Ref sig .tc := ⟨.hbm, 16, rfl⟩
abbrev main_call0_v1 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_call1_v0 : Ref sig .tc := ⟨.hbm, 21, rfl⟩
abbrev main_call1_v1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_call2_c : Ref sig .tc := ⟨.hbm, 28, rfl⟩
abbrev main_call2_v0 : Ref sig .tc := ⟨.hbm, 29, rfl⟩
abbrev main_call2_v1 : Ref sig .tc := ⟨.hbm, 30, rfl⟩
abbrev main_call2_c_0 : Ref sig .tc := ⟨.hbm, 31, rfl⟩
abbrev main_call2_v2 : Ref sig .tc := ⟨.hbm, 32, rfl⟩
abbrev main_call2_v3 : Ref sig .tc := ⟨.hbm, 33, rfl⟩
abbrev main_call2_v4 : Ref sig .tc := ⟨.hbm, 34, rfl⟩
abbrev main_call2_v5 : Ref sig .tc := ⟨.hbm, 35, rfl⟩
abbrev main_call2_c_1 : Ref sig .tc := ⟨.hbm, 36, rfl⟩
abbrev main_call2_c_2 : Ref sig .tc := ⟨.hbm, 37, rfl⟩
abbrev main_call2_v6 : Ref sig .tc := ⟨.hbm, 38, rfl⟩
abbrev main_call2_v7 : Ref sig .tc := ⟨.hbm, 39, rfl⟩
abbrev main_call2_v8 : Ref sig .tc := ⟨.hbm, 40, rfl⟩
abbrev main_call2_v9 : Ref sig .tc := ⟨.hbm, 41, rfl⟩
abbrev main_call2_v10 : Ref sig .tc := ⟨.hbm, 42, rfl⟩
abbrev main_call2_v11 : Ref sig .tc := ⟨.hbm, 43, rfl⟩
abbrev main_call2_c_3 : Ref sig .tc := ⟨.hbm, 44, rfl⟩
abbrev main_call2_v12 : Ref sig .tc := ⟨.hbm, 45, rfl⟩
abbrev main_call2_v13 : Ref sig .tc := ⟨.hbm, 46, rfl⟩
abbrev main_call2_v14 : Ref sig .tc := ⟨.hbm, 47, rfl⟩
abbrev main_call2_cst : Ref sig .tc := ⟨.hbm, 48, rfl⟩
abbrev main_call2_v15 : Ref sig .tc := ⟨.hbm, 49, rfl⟩
abbrev main_v14 : Ref sig .tc := ⟨.hbm, 50, rfl⟩
abbrev main_cst_4 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.KernelRun.lean ====
/-
  The idealized kernel program's run, with its result named.

  The program is a line of host operations, a first blocked region (every row of x scaled by its source-degree
  factor), the gather along edges and the scatter-add into target rows on the host, and a second blocked region
  (rows scaled by the target-degree factor, the dense layer). Its frame argument already follows the buffer
  contents from one boundary to the next: a fold through the host stretches, and at each region's exit the region's
  arrays at what its write-backs leave. Every weakly fair execution ends with EVERY unscoped buffer at the last
  boundary's contents; read at the result buffer that is the result's value, and at the arguments their launch
  contents.
-/
import proofs.«112754_j67250597921413_1_alg».proof.Proof.Gen.KernelIdeal.Frame

noncomputable section

namespace Cert.KernelIdeal.KValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates with the result buffer at the last boundary's contents
    (the fold of the host stretches and the two regions' write-backs from the launch memory) and the five argument
    arrays as launched: the launch over the program's segments, the last thread state read against the final state
    at the result buffer and at each argument. -/
theorem run_last : θ_run defs (onTc (τ := τ) (main (F := F))) ⟨m, fun _ => 0, ρ⟩ (fun r => ∀ c : Dev nD,
      r.2.mem ((c.tc : Thread nD τ).loc main_v19) = W9 m ρ c (Proc.devRef .tc main_v19)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v19 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c)⟩)

end Cert.KernelIdeal.KValue

end
-- ==== Proof.KernelHost.lean ====
/-
  The host side of the idealized kernel program, read as values.

  Between the launch and the first region the host counts, for every node, the edges leaving it and the edges
  entering it (a scatter-add of ones at the edge's source, respectively target, into a zero vector), clips the counts
  below at one and takes the inverse square root: `invSqrtDeg`. The first region scales the rows of x by the
  source factor, laid out as a column. Between the regions the host gathers, for every edge, the scaled row of the
  edge's source (an index below zero wraps once by the row count; a row number still out of range reads the
  not-a-number constant) and adds it into the row of the edge's target, starting from zero: `aggregate`. The second
  region takes that array, the target factor as a column, the weights and the bias as a row.

  Each lemma here reads one buffer at a region's entry through the fold of the host operations before it.
-/
import proofs.«112754_j67250597921413_1_alg».proof.Proof.Gen.KernelIdeal.Frame
import Idealize.ShloMosaic.Lib.StableHlo.Run

noncomputable section

namespace Cert.KernelIdeal.KValue

open Cert.KernelIdeal Cert.KernelIdeal.Gen
open Idealize.ShloMosaic Idealize.ShloMosaic.TcCoe Idealize.SL.Sem Idealize.ShloMosaic.StableHlo

variable {F : FTy → Type} [FloatOps F]

/-- The inverse square root of each node's degree clipped below at one, the degree counted as the number of
    entries of `idx` naming the node. -/
def invSqrtDeg (idx : (⟨S800000, .i32⟩ : BufTy).Contents (Elt F)) : (⟨S50000, .f32⟩ : BufTy).Contents (Elt F) :=
  Host.rsqrt (maximumf (broadcastInDim S50000 ![] bcast_S_S50000 (id (constant S_ .f32 0x3F800000#32)))
    (Host.scatterAdd scatter_S50000_S800000x1_S800000_n_0_0_1
      (broadcastInDim S50000 ![] bcast_S_S50000 (constant S_ .f32 0x00000000#32))
      (broadcastInDim S800000x1 ![0] bcast_S800000_S800000x1_0 idx)
      (broadcastInDim S800000 ![] bcast_S_S800000 (constant S_ .f32 0x3F800000#32))))

/-- A vector over the nodes laid out as a column. -/
def asColumn (v : (⟨S50000, .f32⟩ : BufTy).Contents (Elt F)) : (⟨S50000x1, .f32⟩ : BufTy).Contents (Elt F) :=
  shapeCast S50000x1 v shapeCasts_S50000_S50000x1

/-- The bias laid out as a row. -/
def asRow (b : (⟨S64, .f32⟩ : BufTy).Contents (Elt F)) : (⟨S1x64, .f32⟩ : BufTy).Contents (Elt F) :=
  shapeCast S1x64 b shapeCasts_S64_S1x64

/-- The row numbers as the gather reads them: a negative one wrapped once by the row count, as a column. -/
def rowNumbers (idx : (⟨S800000, .i32⟩ : BufTy).Contents (Elt F)) : (⟨S800000x1, .i32⟩ : BufTy).Contents (Elt F) :=
  broadcastInDim S800000x1 ![0] bcast_S800000_S800000x1_0
    (select (cmpi .slt idx (broadcastInDim S800000 ![] bcast_S_S800000 (constantI S_ 32 0#32)))
      (addi idx (broadcastInDim S800000 ![] bcast_S_S800000 (constantI S_ 32 50000#32))) idx)

/-- For every edge, the row of `h` at the edge's row number; a row number out of range reads the not-a-number
    constant in every column. -/
def takeRows (h : (⟨S50000x64, .f32⟩ : BufTy).Contents (Elt F)) (idx : (⟨S800000, .i32⟩ : BufTy).Contents (Elt F)) :
    (⟨S800000x64, .f32⟩ : BufTy).Contents (Elt F) :=
  select
    (broadcastInDim S800000x64 ![0] bcast_S800000_S800000x64_0
      (Host.reduce IntOp.andi
        (andi (cmpi .sge (rowNumbers idx) (broadcastInDim S800000x1 ![] bcast_S_S800000x1 (constantI S_ 32 0#32)))
          (cmpi .sle (rowNumbers idx)
            (broadcastInDim S800000x1 ![0, 1] bcast_S1x1_S800000x1_0_1
              (broadcastInDim S1x1 ![1] bcast_S1_S1x1_1 (constantI S1 32 49999#32)))))
        (constantI S_ 1 1#1) reducesTo_S800000x1_S800000_d1 h_S_))
    (Host.gather gather_S50000x64_S800000x1_S800000x64_1_0_n_n_0_1_164 h (rowNumbers idx))
    (broadcastInDim S800000x64 ![] bcast_S_S800000x64 (constant S_ .f32 0x7FC00000#32))

/-- The rows of `h` gathered along the edges' sources and added into the rows of the edges' targets, from zero. -/
def aggregate (h : (⟨S50000x64, .f32⟩ : BufTy).Contents (Elt F)) (src dst : (⟨S800000, .i32⟩ : BufTy).Contents (Elt F)) :
    (⟨S50000x64, .f32⟩ : BufTy).Contents (Elt F) :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 dst)
    (takeRows h src)

/-! ## Each stretch of host operations read over any contents `W` -/

/-- The five stretches before the first region, as one fold. -/
abbrev beforeFirst (W : Valuation τ sig (Elt F)) : Valuation τ sig (Elt F) :=
  StableHlo.after (hostOps0_4 (F := F)) (StableHlo.after (hostOps0_3 (F := F)) (StableHlo.after (hostOps0_2 (F := F))
    (StableHlo.after (hostOps0_1 (F := F)) (StableHlo.after (hostOps0 (F := F)) W))))

/-- The two stretches between the regions, as one fold. -/
abbrev between (W : Valuation τ sig (Elt F)) : Valuation τ sig (Elt F) :=
  StableHlo.after (hostOps1_1 (F := F)) (StableHlo.after (hostOps1 (F := F)) W)

attribute [local irreducible] Host.scatterAdd Host.gather Host.reduce Host.rsqrt in
theorem beforeFirst_x (W : Valuation τ sig (Elt F)) :
    beforeFirst W (Proc.devRef .tc main_arg0) = W (Proc.devRef .tc main_arg0) := by
  after_results_simp

attribute [local irreducible] Host.scatterAdd Host.gather Host.reduce Host.rsqrt in
theorem beforeFirst_src (W : Valuation τ sig (Elt F)) :
    beforeFirst W (Proc.devRef .tc main_arg1) = W (Proc.devRef .tc main_arg1) := by
  after_results_simp

attribute [local irreducible] Host.scatterAdd Host.gather Host.reduce Host.rsqrt in
theorem beforeFirst_dst (W : Valuation τ sig (Elt F)) :
    beforeFirst W (Proc.devRef .tc main_arg2) = W (Proc.devRef .tc main_arg2) := by
  after_results_simp

attribute [local irreducible] Host.scatterAdd Host.gather Host.reduce Host.rsqrt in
theorem beforeFirst_w (W : Valuation τ sig (Elt F)) :
    beforeFirst W (Proc.devRef .tc main_arg3) = W (Proc.devRef .tc main_arg3) := by
  after_results_simp

attribute [local irreducible] Host.scatterAdd Host.gather Host.reduce Host.rsqrt in
theorem beforeFirst_b (W : Valuation τ sig (Elt F)) :
    beforeFirst W (Proc.devRef .tc main_arg4) = W (Proc.devRef .tc main_arg4) := by
  after_results_simp

attribute [local irreducible] Host.scatterAdd Host.gather Host.reduce Host.rsqrt in
/-- The source factor, laid out as a column. -/
theorem beforeFirst_srcColumn (W : Valuation τ sig (Elt F)) :
    beforeFirst W (Proc.devRef .tc main_v11) = asColumn (invSqrtDeg (W (Proc.devRef .tc main_arg1))) := by
  after_results_simp
  simp only [TRef.toBuf, TRef.ofBuf, cast_eq]
  rfl

attribute [local irreducible] Host.scatterAdd Host.gather Host.reduce Host.rsqrt in
/-- The target factor. -/
theorem beforeFirst_dstFactor (W : Valuation τ sig (Elt F)) :
    beforeFirst W (Proc.devRef .tc main_v10) = invSqrtDeg (W (Proc.devRef .tc main_arg2)) := by
  after_results_simp
  simp only [TRef.toBuf, TRef.ofBuf, cast_eq]
  rfl

attribute [local irreducible] Host.scatterAdd Host.gather Host.reduce Host.rsqrt in
/-- The gather's result after the stretch that computes it. -/
theorem take_read (W : Valuation τ sig (Elt F)) :
    StableHlo.after (hostOps1 (F := F)) W (Proc.devRef .tc main_v13)
      = takeRows (W (Proc.devRef .tc main_v12)) (W (Proc.devRef .tc main_arg1)) := by
  after_results_simp
  simp only [TRef.toBuf, TRef.ofBuf, cast_eq]
  rfl

attribute [local irreducible] Host.scatterAdd Host.gather Host.reduce Host.rsqrt in
theorem take_keeps_dst (W : Valuation τ sig (Elt F)) :
    StableHlo.after (hostOps1 (F := F)) W (Proc.devRef .tc main_arg2) = W (Proc.devRef .tc main_arg2) := by
  after_results_simp

attribute [local irreducible] Host.scatterAdd Host.gather Host.reduce Host.rsqrt in
/-- The scatter-add's result after the last stretch, from the gather's result and the targets. -/
theorem scatter_read (W : Valuation τ sig (Elt F)) :
    StableHlo.after (hostOps1_1 (F := F)) W (Proc.devRef .tc main_v16)
      = Host.scatterAdd scatter_S50000x64_S800000x1_S800000x64_1_0_0_1
          (broadcastInDim S50000x64 ![] bcast_S_S50000x64 (constant S_ .f32 0x00000000#32))
          (broadcastInDim S800000x1 ![0] bcast_S800000_S800000x1_0 (W (Proc.devRef .tc main_arg2)))
          (W (Proc.devRef .tc main_v13)) := by
  after_results_simp

/-- The aggregated rows at the second region's entry. -/
theorem between_agg (W : Valuation τ sig (Elt F)) :
    between W (Proc.devRef .tc main_v16)
      = aggregate (W (Proc.devRef .tc main_v12)) (W (Proc.devRef .tc main_arg1)) (W (Proc.devRef .tc main_arg2)) := by
  show StableHlo.after (hostOps1_1 (F := F)) (StableHlo.after (hostOps1 (F := F)) W) (Proc.devRef .tc main_v16) = _
  rw [scatter_read, take_read, take_keeps_dst]
  rfl

attribute [local irreducible] Host.scatterAdd Host.gather Host.reduce Host.rsqrt in
theorem between_column (W : Valuation τ sig (Elt F)) :
    between W (Proc.devRef .tc main_v17) = asColumn (W (Proc.devRef .tc main_v10)) := by
  after_results_simp
  rfl

attribute [local irreducible] Host.scatterAdd Host.gather Host.reduce Host.rsqrt in
theorem between_w (W : Valuation τ sig (Elt F)) :
    between W (Proc.devRef .tc main_arg3) = W (Proc.devRef .tc main_arg3) := by
  after_results_simp

attribute [local irreducible] Host.scatterAdd Host.gather Host.reduce Host.rsqrt in
theorem between_row (W : Valuation τ sig (Elt F)) :
    between W (Proc.devRef .tc main_v18) = asRow (W (Proc.devRef .tc main_arg4)) := by
  after_results_simp
  rfl

end Cert.KernelIdeal.KValue

end
-- ==== Proof.LibRowOps.lean ====
/-
  Row-wise operations on matrices of extended reals, generic in the sizes, each with the forms it takes in a program:
  on the host (broadcast_in_dim, dot_general) and inside a vector unit's body (shape casts, vector.broadcast, the matrix
  unit's product into a zero accumulator).

    reluRow a b     entry (r, c) is max (a(r, c) + b(0, c)) 0
    scaleRows g n   entry (r, c) is g(r, c) · n(r, 0):        every row of g scaled by that row's entry of the column n
    addRow a b      entry (r, c) is a(r, c) + b(0, c):        the row b added to every row of a
    matProd x w     entry (r, c) is ∑ k, x(r, k) · w(k, c):   the matrix product

  A column [A] cast to [A, 1] is the same array as that column broadcast along a new unit axis (colCast_eq_bcast), and
  likewise a row [B] cast to [1, B] (rowCast_eq_bcast).
-/
import Idealize.ShloMosaic.Lib.Pipeline.Value
import Idealize.ShloMosaic.Lib.ValueIdx
import Idealize.ShloMosaic.Lib.ValueLayout
import Idealize.ShloMosaic.PureOps.Ideal.Laws

noncomputable section

namespace Cert.RowOps

open Idealize.ShloMosaic Idealize.ShloMosaic.ValueIdx

/-- The entry of column 0 in the row of `i`. -/
abbrev col0 {A B : ℕ} (i : (⟨2, ![A, B]⟩ : Shape).Idx) : (⟨2, ![A, 1]⟩ : Shape).Idx :=
  ix2 (⟨(i 0).val, idx2_lt0 i⟩ : Fin A) (0 : Fin 1)

/-- The entry of row 0 in the column of `i`. -/
abbrev row0 {A B : ℕ} (i : (⟨2, ![A, B]⟩ : Shape).Idx) : (⟨2, ![1, B]⟩ : Shape).Idx :=
  ix2 (0 : Fin 1) (⟨(i 1).val, idx2_lt1 i⟩ : Fin B)

/-- Every row of `g` scaled by that row's entry of the column `n`. -/
def scaleRows {A B : ℕ} (g : (⟨2, ![A, B]⟩ : Shape).Idx → EReal) (n : (⟨2, ![A, 1]⟩ : Shape).Idx → EReal) :
    (⟨2, ![A, B]⟩ : Shape).Idx → EReal := fun i => g i * n (col0 i)

/-- The row `b` added to every row of `a`. -/
def addRow {A B : ℕ} (a : (⟨2, ![A, B]⟩ : Shape).Idx → EReal) (b : (⟨2, ![1, B]⟩ : Shape).Idx → EReal) :
    (⟨2, ![A, B]⟩ : Shape).Idx → EReal := fun i => a i + b (row0 i)

/-- The row `b` added to every row of `a`, then every entry cut off below at zero. -/
def reluRow {A B : ℕ} (a : (⟨2, ![A, B]⟩ : Shape).Idx → EReal) (b : (⟨2, ![1, B]⟩ : Shape).Idx → EReal) :
    (⟨2, ![A, B]⟩ : Shape).Idx → EReal := fun i => max (addRow a b i) (Ideal.ofBits .f32 0x00000000#32)

/-- The matrix product. -/
def matProd {A K B : ℕ} (x : (⟨2, ![A, K]⟩ : Shape).Idx → EReal) (w : (⟨2, ![K, B]⟩ : Shape).Idx → EReal) :
    (⟨2, ![A, B]⟩ : Shape).Idx → EReal :=
  fun i => ∑ k : Fin K, x (ix2 (⟨(i 0).val, idx2_lt0 i⟩ : Fin A) k) * w (ix2 k (⟨(i 1).val, idx2_lt1 i⟩ : Fin B))

/-! ## On the host -/

/-- A column [A, 1] broadcast to [A, B] along its unit axis reads, at `i`, the column's entry in the row of `i`. -/
theorem bcastCol_apply {A B : ℕ} (h : (⟨2, ![A, 1]⟩ : Shape).BroadcastsInDim ⟨2, ![A, B]⟩ ![0, 1])
    (n : (⟨2, ![A, 1]⟩ : Shape).Idx → EReal) (i : (⟨2, ![A, B]⟩ : Shape).Idx) :
    broadcastInDim ⟨2, ![A, B]⟩ ![0, 1] h n i = n (col0 i) :=
  broadcastInDim_apply _ h n i (col0 i) (fun a => match a with
    | ⟨0, _⟩ => by
      show (i 0).val = if A = 1 then 0 else (i 0).val
      split
      · have := idx2_lt0 i; omega
      · rfl
    | ⟨1, _⟩ => by show 0 = if (1 : ℕ) = 1 then 0 else (i 1).val; rw [if_pos rfl])

/-- The host's product of `g` with the column `n` broadcast over the columns is `scaleRows g n`. -/
theorem mulf_bcastCol {A B : ℕ} (h : (⟨2, ![A, 1]⟩ : Shape).BroadcastsInDim ⟨2, ![A, B]⟩ ![0, 1])
    (g : FVec Ideal ⟨2, ![A, B]⟩ .f32) (n : FVec Ideal ⟨2, ![A, 1]⟩ .f32) :
    mulf g (broadcastInDim ⟨2, ![A, B]⟩ ![0, 1] h n) = scaleRows g n :=
  funext fun i => by
    show g i * broadcastInDim ⟨2, ![A, B]⟩ ![0, 1] h n i = g i * n (col0 i)
    rw [bcastCol_apply]

/-- A row [1, B] broadcast to [A, B] along its unit axis reads, at `i`, the row's entry in the column of `i`. -/
theorem bcastRow_apply {A B : ℕ} (h : (⟨2, ![1, B]⟩ : Shape).BroadcastsInDim ⟨2, ![A, B]⟩ ![0, 1])
    (b : (⟨2, ![1, B]⟩ : Shape).Idx → EReal) (i : (⟨2, ![A, B]⟩ : Shape).Idx) :
    broadcastInDim ⟨2, ![A, B]⟩ ![0, 1] h b i = b (row0 i) :=
  broadcastInDim_apply _ h b i (row0 i) (fun a => match a with
    | ⟨0, _⟩ => by show 0 = if (1 : ℕ) = 1 then 0 else (i 0).val; rw [if_pos rfl]
    | ⟨1, _⟩ => by
      show (i 1).val = if B = 1 then 0 else (i 1).val
      split
      · have := idx2_lt1 i; omega
      · rfl)

/-- The host's sum of `a` with the row `b` broadcast over the rows is `addRow a b`. -/
theorem addf_bcastRow {A B : ℕ} (h : (⟨2, ![1, B]⟩ : Shape).BroadcastsInDim ⟨2, ![A, B]⟩ ![0, 1])
    (a : FVec Ideal ⟨2, ![A, B]⟩ .f32) (b : FVec Ideal ⟨2, ![1, B]⟩ .f32) :
    addf a (broadcastInDim ⟨2, ![A, B]⟩ ![0, 1] h b) = addRow a b :=
  funext fun i => by
    show a i + broadcastInDim ⟨2, ![A, B]⟩ ![0, 1] h b i = a i + b (row0 i)
    rw [bcastRow_apply]

/-- The host's maximum of `addRow a b` with the zero constant broadcast to the whole shape is `reluRow a b`. -/
theorem maximumf_bcastZero {A B : ℕ} (h : (⟨0, ![]⟩ : Shape).BroadcastsInDim ⟨2, ![A, B]⟩ ![])
    (a : (⟨2, ![A, B]⟩ : Shape).Idx → EReal) (b : (⟨2, ![1, B]⟩ : Shape).Idx → EReal) :
    maximumf (F := Ideal) (s := ⟨2, ![A, B]⟩) (φ := .f32) (addRow a b)
      (broadcastInDim ⟨2, ![A, B]⟩ ![] h (constant (F := Ideal) ⟨0, ![]⟩ .f32 0x00000000#32)) = reluRow a b :=
  funext fun i => rfl

/-- A column [A] cast to [A, 1] is that column broadcast along a new trailing unit axis. -/
theorem colCast_eq_bcast {A : ℕ} {α : Type} (hc : (⟨1, ![A]⟩ : Shape).ShapeCasts ⟨2, ![A, 1]⟩)
    (hb : (⟨1, ![A]⟩ : Shape).BroadcastsInDim ⟨2, ![A, 1]⟩ ![0]) (v : (⟨1, ![A]⟩ : Shape).Idx → α) :
    shapeCast ⟨2, ![A, 1]⟩ v hc = broadcastInDim ⟨2, ![A, 1]⟩ ![0] hb v :=
  funext fun i => by
    have hi1 : (i 1).val = 0 := by have := idx2_lt1 i; omega
    rw [shapeCast_apply v hc i (ix1 (⟨(i 0).val, idx2_lt0 i⟩ : Fin A)) (by
          rw [Shape.rowMajor_val_two, Shape.rowMajor_val_one]
          show (i 0).val = (i 0).val * 1 + (i 1).val
          rw [hi1, Nat.mul_one, Nat.add_zero]),
      broadcastInDim_apply _ hb v i (ix1 (⟨(i 0).val, idx2_lt0 i⟩ : Fin A)) (fun a => match a with
        | ⟨0, _⟩ => by
          show (i 0).val = if A = 1 then 0 else (i 0).val
          split
          · have := idx2_lt0 i; omega
          · rfl)]

/-- A row [B] cast to [1, B] is that row broadcast along a new leading unit axis. -/
theorem rowCast_eq_bcast {B : ℕ} {α : Type} (hc : (⟨1, ![B]⟩ : Shape).ShapeCasts ⟨2, ![1, B]⟩)
    (hb : (⟨1, ![B]⟩ : Shape).BroadcastsInDim ⟨2, ![1, B]⟩ ![1]) (v : (⟨1, ![B]⟩ : Shape).Idx → α) :
    shapeCast ⟨2, ![1, B]⟩ v hc = broadcastInDim ⟨2, ![1, B]⟩ ![1] hb v :=
  funext fun i => by
    have hi0 : (i 0).val = 0 := by have := idx2_lt0 i; omega
    rw [shapeCast_apply v hc i (ix1 (⟨(i 1).val, idx2_lt1 i⟩ : Fin B)) (by
          rw [Shape.rowMajor_val_two, Shape.rowMajor_val_one]
          show (i 1).val = (i 0).val * B + (i 1).val
          rw [hi0, Nat.zero_mul, Nat.zero_add]),
      broadcastInDim_apply _ hb v i (ix1 (⟨(i 1).val, idx2_lt1 i⟩ : Fin B)) (fun a => match a with
        | ⟨0, _⟩ => by
          show (i 1).val = if B = 1 then 0 else (i 1).val
          split
          · have := idx2_lt1 i; omega
          · rfl)]

/-- The host's `dot_general` of an [A, K] by a [K, B] matrix, contracting the one shared axis, is the matrix product:
    for any dimension record whose index facts say the left index takes the output row and the contraction position and
    the right index the contraction position and the output column. -/
theorem dotGeneral_eq_matProd {A K B : ℕ}
    (d : DotDims ⟨2, ![A, K]⟩ ⟨2, ![K, B]⟩ ⟨2, ![A, B]⟩) (hr : d.contr.rank = 1) (hs : d.contr.size ⟨0, by omega⟩ = K)
    (hl0 : ∀ (i : (⟨2, ![A, B]⟩ : Shape).Idx) (q : d.contr.Idx), (d.lhsIdx i q 0).val = (i 0).val)
    (hl1 : ∀ (i : (⟨2, ![A, B]⟩ : Shape).Idx) (q : d.contr.Idx), (d.lhsIdx i q 1).val = (q ⟨0, by omega⟩).val)
    (hr0 : ∀ (i : (⟨2, ![A, B]⟩ : Shape).Idx) (q : d.contr.Idx), (d.rhsIdx i q 0).val = (q ⟨0, by omega⟩).val)
    (hr1 : ∀ (i : (⟨2, ![A, B]⟩ : Shape).Idx) (q : d.contr.Idx), (d.rhsIdx i q 1).val = (i 1).val)
    (prec : Option ContractPrecision) (sched : HostSchedule)
    (L : FVec Ideal ⟨2, ![A, K]⟩ .f32) (R : FVec Ideal ⟨2, ![K, B]⟩ .f32) :
    FloatOps.dotGeneral d prec sched L R = matProd L R :=
  funext fun i => by
    rw [Ideal.dotGeneral_apply, ← Equiv.sum_comp (contrEquiv1 d K hr hs).symm]
    refine Finset.sum_congr rfl fun k _ => ?_
    have hk := contrEquiv1_symm_val d K hr hs k
    have el : d.lhsIdx i ((contrEquiv1 d K hr hs).symm k) = ix2 (⟨(i 0).val, idx2_lt0 i⟩ : Fin A) k :=
      funext fun a => Fin.ext (by
        match a with
        | ⟨0, _⟩ => exact hl0 _ _
        | ⟨1, _⟩ => exact (hl1 _ _).trans hk)
    have er : d.rhsIdx i ((contrEquiv1 d K hr hs).symm k) = ix2 k (⟨(i 1).val, idx2_lt1 i⟩ : Fin B) :=
      funext fun a => Fin.ext (by
        match a with
        | ⟨0, _⟩ => exact (hr0 _ _).trans hk
        | ⟨1, _⟩ => exact hr1 _ _)
    rw [el, er]

/-! ## Inside a vector unit's body -/

/-- The body's product of a block `x0` with a column block `x1` broadcast over the columns is `scaleRows x0 x1`. -/
theorem mulf_broadcastTo_col {A B : ℕ} (h : (⟨2, ![A, 1]⟩ : Shape).Broadcasts ⟨2, ![A, B]⟩)
    (x0 : FVec Ideal ⟨2, ![A, B]⟩ .f32) (x1 : FVec Ideal ⟨2, ![A, 1]⟩ .f32) :
    mulf x0 (broadcastTo ⟨2, ![A, B]⟩ x1 h) = scaleRows x0 x1 :=
  funext fun i => by
    show x0 i * broadcastTo ⟨2, ![A, B]⟩ x1 h i = x0 i * x1 (col0 i)
    refine congrArg (x0 i * ·) (broadcastTo_apply x1 h i (col0 i) fun a => ?_)
    match a with
    | ⟨0, _⟩ =>
      show (i 0).val = if A = 1 then 0 else (i 0).val
      split
      · have := idx2_lt0 i; omega
      · rfl
    | ⟨1, _⟩ => rfl

/-- The body's sum of a block `x0` with a row block `x1` broadcast over the rows is `addRow x0 x1`. -/
theorem addf_broadcastTo_row {A B : ℕ} (h : (⟨2, ![1, B]⟩ : Shape).Broadcasts ⟨2, ![A, B]⟩)
    (x0 : FVec Ideal ⟨2, ![A, B]⟩ .f32) (x1 : FVec Ideal ⟨2, ![1, B]⟩ .f32) :
    addf x0 (broadcastTo ⟨2, ![A, B]⟩ x1 h) = addRow x0 x1 :=
  funext fun i => by
    show x0 i + broadcastTo ⟨2, ![A, B]⟩ x1 h i = x0 i + x1 (row0 i)
    refine congrArg (x0 i + ·) (broadcastTo_apply x1 h i (row0 i) fun a => ?_)
    match a with
    | ⟨0, _⟩ => rfl
    | ⟨1, _⟩ =>
      show (i 1).val = if B = 1 then 0 else (i 1).val
      split
      · have := idx2_lt1 i; omega
      · rfl

/-- The body's maximum of `addRow x0 x1` with the zero splat is `reluRow x0 x1`. -/
theorem maximumf_splatZero {A B : ℕ} (x0 : (⟨2, ![A, B]⟩ : Shape).Idx → EReal) (x1 : (⟨2, ![1, B]⟩ : Shape).Idx → EReal) :
    maximumf (F := Ideal) (s := ⟨2, ![A, B]⟩) (φ := .f32) (addRow x0 x1)
      (broadcast ⟨2, ![A, B]⟩ (Scalar.ofBits (F := Ideal) .f32 0x00000000#32)) = reluRow x0 x1 :=
  funext fun i => rfl

/-- The matrix unit's product into a zero accumulator is the matrix product (the operands' change of float format is
    the identity on extended reals), under the same index facts as `dotGeneral_eq_matProd`. -/
theorem matmul_eq_matProd {A K B : ℕ} {φ₁ φ₂ : FTy}
    (d : DotDims ⟨2, ![A, K]⟩ ⟨2, ![K, B]⟩ ⟨2, ![A, B]⟩) (hr : d.contr.rank = 1) (hs : d.contr.size ⟨0, by omega⟩ = K)
    (hl0 : ∀ (i : (⟨2, ![A, B]⟩ : Shape).Idx) (q : d.contr.Idx), (d.lhsIdx i q 0).val = (i 0).val)
    (hl1 : ∀ (i : (⟨2, ![A, B]⟩ : Shape).Idx) (q : d.contr.Idx), (d.lhsIdx i q 1).val = (q ⟨0, by omega⟩).val)
    (hr0 : ∀ (i : (⟨2, ![A, B]⟩ : Shape).Idx) (q : d.contr.Idx), (d.rhsIdx i q 0).val = (q ⟨0, by omega⟩).val)
    (hr1 : ∀ (i : (⟨2, ![A, B]⟩ : Shape).Idx) (q : d.contr.Idx), (d.rhsIdx i q 1).val = (i 1).val)
    (prec : Option ContractPrecision) (L : FVec Ideal ⟨2, ![A, K]⟩ φ₁) (R : FVec Ideal ⟨2, ![K, B]⟩ φ₂) :
    FloatOps.matmul d prec L R (constant ⟨2, ![A, B]⟩ .f32 0x00000000#32) = matProd (fun j => L j) (fun j => R j) :=
  funext fun i => by
    rw [Ideal.matmul_constant_zero_apply, ← Equiv.sum_comp (contrEquiv1 d K hr hs).symm]
    refine Finset.sum_congr rfl fun k _ => ?_
    have hk := contrEquiv1_symm_val d K hr hs k
    have el : d.lhsIdx i ((contrEquiv1 d K hr hs).symm k) = ix2 (⟨(i 0).val, idx2_lt0 i⟩ : Fin A) k :=
      funext fun a => Fin.ext (by
        match a with
        | ⟨0, _⟩ => exact hl0 _ _
        | ⟨1, _⟩ => exact (hl1 _ _).trans hk)
    have er : d.rhsIdx i ((contrEquiv1 d K hr hs).symm k) = ix2 k (⟨(i 1).val, idx2_lt1 i⟩ : Fin B) :=
      funext fun a => Fin.ext (by
        match a with
        | ⟨0, _⟩ => exact (hr0 _ _).trans hk
        | ⟨1, _⟩ => exact hr1 _ _)
    rw [el, er]

end Cert.RowOps

end
-- ==== Proof.Region0.lean ====
/-
  The first vector-unit region scales the rows of the feature matrix: on the whole [50000, 64] array x and the
  [50000, 1] column n it leaves the array whose entry (r, c) is x(r, c) · n(r, 0).

  The region works on ten bands of 5000 rows. At grid point t it reads rows 5000·t … 5000·t + 4999 of x and of n,
  multiplies every row of the band of x by that row's entry of the band of n, and writes the result to the same rows
  of the output. A row's entry of the column inside a band is the row's entry of the whole column, so what point t
  writes is band t of the scaled whole array; the ten bands are disjoint and together are all 50000 rows, so after the
  last point the output is the scaled whole array, whatever it held before.
-/
import proofs.«112754_j67250597921413_1_alg».proof.Proof.Gen.KernelIdeal.Frame
import proofs.«112754_j67250597921413_1_alg».proof.Proof.LibRowOps
import Idealize.ShloMosaic.Lib.Pipeline.Value
import Idealize.ShloMosaic.Lib.ValueIdx

noncomputable section

namespace Cert.KernelIdeal.Region0

open Cert.KernelIdeal Cert.KernelIdeal.Gen Idealize.ShloMosaic Idealize.ShloMosaic.TcCoe Idealize.SL.Sem
open Idealize.ShloMosaic.Pipeline (Dat)
open Cert.RowOps

/-- The offset (0, 0) is the zero offset on both axes. -/
theorem zeros : (![0, 0] : Fin 2 → Nat) = fun _ => 0 := funext fun a => by fin_cases a <;> rfl

/-- On one band: the body's value is the band of x with every row scaled by that row's entry of the band of the
    column (recasting a [5000, 1] column to its own shape changes nothing; the column is then repeated over the 64
    feature positions and multiplied in entry by entry). -/
theorem pay (x0 : Vec Ideal S5000x64 .f32) (x1 : Vec Ideal S5000x1 .f32) :
    Gen.k0_pay1 x0 x1 = scaleRows (A := 5000) (B := 64) x0 x1 := by
  unfold Gen.k0_pay1
  rw [shapeCast_self]
  exact mulf_broadcastTo_col _ x0 x1

/-- The band each operand is on at point t: x and the column are on the output's band of rows, every operand is on
    its one band of columns, and the band of rows is one of the ten. -/
theorem band_facts : ∀ t : Fin cfg0.N, win0_0.index t (0 : Fin 2) = win0_2.index t (0 : Fin 2)
    ∧ win0_0.index t (1 : Fin 2) = 0
    ∧ win0_1.index t (0 : Fin 2) = win0_2.index t (0 : Fin 2)
    ∧ win0_1.index t (1 : Fin 2) = 0
    ∧ win0_2.index t (1 : Fin 2) = 0
    ∧ win0_2.index t (0 : Fin 2) ≤ 9 :=
  (by decide +kernel : ∀ t : Fin grid0.N, _)

/-- Each of the ten bands of rows is some point's. -/
theorem band_onto : ∀ q : Fin 10, ∃ t : Fin cfg0.N, win0_2.index t = ![q.val, 0] :=
  (by decide +kernel : ∀ q : Fin 10, ∃ t : Fin grid0.N, win0_2.index t = ![q.val, 0])

/-- What point t writes back is band t of the scaled whole array. Entry (p, c) of the band is row 5000·t + p: the band
    of x has x(5000·t + p, c) there, and the band of the column has n(5000·t + p, 0) in its row p, which is the entry
    of the whole column in the row of (5000·t + p, c). -/
theorem flushed_eq (V : (c : Dev nD) → (b : Ref sig .tc) → Buf (Elt Ideal) ((c : Thread nD τ).loc b)) (c : Dev nD)
    (t : Fin cfg0.N) :
    (Gen.dat0 (F := Ideal) V c).flushed 2 t
      = ((cfg0.win 2).blk t).view.read (Elt Ideal)
          (scaleRows (A := 50000) (B := 64) (V c main_arg0) (V c main_v11)) := by
  show (cfg0.win 2).cut (grid0.coords t) ((Gen.dat0 V c).after 2 t) = _
  rw [Gen.after0_2]
  unfold Gen.out0_2
  rw [View.canon_unit_zero zeros]
  simp only [View.ld_unit_zero (S := S5000x64) zeros, View.ld_unit_zero (S := S5000x1) zeros]
  rw [pay]
  obtain ⟨e0, e1, e2, e3, e4, e5⟩ := band_facts t
  funext j
  -- the band of x and the output's band are the same rows and the same columns of their arrays
  have h0 : ((cfg0.win 0).blk t).view.emb j = ((cfg0.win 2).blk t).view.emb j := by
    funext a; apply Fin.ext
    match a with
    | ⟨0, _⟩ =>
      show win0_0.index t (0 : Fin 2) * 5000 + 1 * (j 0).val = win0_2.index t (0 : Fin 2) * 5000 + 1 * (j 0).val
      omega
    | ⟨1, _⟩ =>
      show win0_0.index t (1 : Fin 2) * 64 + 1 * (j 1).val = win0_2.index t (1 : Fin 2) * 64 + 1 * (j 1).val
      omega
  -- row p of the band of the column is row 5000·t + p of the whole column, in its one column
  have h1 : ((cfg0.win 1).blk t).view.emb (col0 (A := 5000) (B := 64) j)
      = col0 (A := 50000) (B := 64) (((cfg0.win 2).blk t).view.emb j) := by
    funext a; apply Fin.ext
    match a with
    | ⟨0, _⟩ =>
      show win0_1.index t (0 : Fin 2) * 5000 + 1 * (j 0).val = win0_2.index t (0 : Fin 2) * 5000 + 1 * (j 0).val
      omega
    | ⟨1, _⟩ =>
      show win0_1.index t (1 : Fin 2) * 1 + 1 * 0 = 0
      omega
  exact congrArg₂ (fun a b : EReal => a * b) (congrArg (V c main_arg0) h0) (congrArg (V c main_v11) h1)

/-- An entry of the output array is in point t's band iff on each axis its coordinate is in the band's range. -/
theorem mem_blk (t : Fin cfg0.N) (i : S50000x64.Idx) :
    i ∈ ((cfg0.win 2).blk t).view.set ↔
      ∀ a : Fin 2, win0_2.index t a * S5000x64.size a ≤ (i a).val
        ∧ (i a).val < win0_2.index t a * S5000x64.size a + S5000x64.size a := by
  show i ∈ ((View.whole main_v12).slice (win0_2.rect t)).set ↔ _
  rw [View.set_slice_whole, Rect.mem_set_unit]
  exact Iff.rfl

/-- The ten bands are all of the array: row r is in band r / 5000, and every band has all 64 columns. -/
theorem cover (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  obtain ⟨t, ht⟩ := band_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 64 ≤ (i 1).val ∧ (i 1).val < win0_2.index t (1 : Fin 2) * 64 + 64
    omega

/-- After the ten points the output array is x with every row scaled by that row's entry of the column, whatever the
    arrays held when the region was entered. -/
theorem array (V : (c : Dev nD) → (b : Ref sig .tc) → Buf (Elt Ideal) ((c : Thread nD τ).loc b)) (c : Dev nD) :
    (Gen.dat0 (F := Ideal) V c).arrAt 2 cfg0.N
      = Cert.RowOps.scaleRows (A := 50000) (B := 64) (V c main_arg0) (V c main_v11) :=
  (Gen.dat0 V c).arrAt_eq_of_cover 2 _ (fun t _ => flushed_eq V c t) cover

end Cert.KernelIdeal.Region0

end
-- ==== Proof.LibRowBand.lean ====
/-
  Rows of a band against rows of the whole.

  A blocked evaluation hands a body a band of rows of a matrix. Every row operation of LibRowOps computes row r of
  its result from row r of its matrix operand alone (and from the common right factor or the common row), so when
  row p of a block is row r of the whole array (`RowEq`), the same holds of the results:

    matProd x w      against  matProd X w      (a common right factor w)
    x + y            against  X + Y            (entry by entry)
    addRow x b       against  addRow X b       (a common row b)
    reluRow x b      against  reluRow X b

  Also: a sum of three entries taken in the order (m + b) + n is the sum (m + n) + b, entry by entry; addition of
  extended reals is commutative and associative, infinities included.
-/
import proofs.«112754_j67250597921413_1_alg».proof.Proof.LibRowOps

noncomputable section

namespace Cert.RowBand

open Idealize.ShloMosaic Idealize.ShloMosaic.ValueIdx Cert.RowOps

/-- Row `p` of the block `x` is row `r` of the array `X`. -/
def RowEq {a N K : ℕ} (x : (⟨2, ![a, K]⟩ : Shape).Idx → EReal) (X : (⟨2, ![N, K]⟩ : Shape).Idx → EReal)
    (p : Fin a) (r : Fin N) : Prop :=
  ∀ k : Fin K, x (ix2 p k) = X (ix2 r k)

/-- The matrix product with a common right factor: row r of the product is ∑ k, (row r)(k) · w(k, ·). -/
theorem RowEq.matProd {a N K B : ℕ} {x : (⟨2, ![a, K]⟩ : Shape).Idx → EReal} {X : (⟨2, ![N, K]⟩ : Shape).Idx → EReal}
    {p : Fin a} {r : Fin N} (h : RowEq x X p r) (w : (⟨2, ![K, B]⟩ : Shape).Idx → EReal) :
    RowEq (Cert.RowOps.matProd x w) (Cert.RowOps.matProd X w) p r := fun c => by
  show ∑ k : Fin K, x (ix2 p k) * w (ix2 k c) = ∑ k : Fin K, X (ix2 r k) * w (ix2 k c)
  exact Finset.sum_congr rfl fun k _ => by rw [h k]

/-- Entry-by-entry sums. -/
theorem RowEq.add {a N K : ℕ} {x y : (⟨2, ![a, K]⟩ : Shape).Idx → EReal} {X Y : (⟨2, ![N, K]⟩ : Shape).Idx → EReal}
    {p : Fin a} {r : Fin N} (hx : RowEq x X p r) (hy : RowEq y Y p r) :
    RowEq (fun i => x i + y i) (fun i => X i + Y i) p r := fun k => by
  show x (ix2 p k) + y (ix2 p k) = X (ix2 r k) + Y (ix2 r k)
  rw [hx k, hy k]

/-- A common row added to every row. -/
theorem RowEq.addRow {a N K : ℕ} {x : (⟨2, ![a, K]⟩ : Shape).Idx → EReal} {X : (⟨2, ![N, K]⟩ : Shape).Idx → EReal}
    {p : Fin a} {r : Fin N} (h : RowEq x X p r) (b : (⟨2, ![1, K]⟩ : Shape).Idx → EReal) :
    RowEq (Cert.RowOps.addRow x b) (Cert.RowOps.addRow X b) p r := fun k => by
  show x (ix2 p k) + b (ix2 (0 : Fin 1) k) = X (ix2 r k) + b (ix2 (0 : Fin 1) k)
  rw [h k]

/-- A common row added to every row, then cut off below at zero. -/
theorem RowEq.reluRow {a N K : ℕ} {x : (⟨2, ![a, K]⟩ : Shape).Idx → EReal} {X : (⟨2, ![N, K]⟩ : Shape).Idx → EReal}
    {p : Fin a} {r : Fin N} (h : RowEq x X p r) (b : (⟨2, ![1, K]⟩ : Shape).Idx → EReal) :
    RowEq (Cert.RowOps.reluRow x b) (Cert.RowOps.reluRow X b) p r := fun k => by
  show max (Cert.RowOps.addRow x b (ix2 p k)) _ = max (Cert.RowOps.addRow X b (ix2 r k)) _
  rw [RowEq.addRow h b k]

/-- (m + b) + n = (m + n) + b at every entry, with the row b read in the entry's column. -/
theorem addRow_add_comm {A B : ℕ} (m n : (⟨2, ![A, B]⟩ : Shape).Idx → EReal) (b : (⟨2, ![1, B]⟩ : Shape).Idx → EReal) :
    (fun i => addRow m b i + n i) = addRow (fun i => m i + n i) b :=
  funext fun i => by
    show m i + b (row0 i) + n i = m i + n i + b (row0 i)
    exact add_right_comm _ _ _

end Cert.RowBand

end
-- ==== Proof.Region1.lean ====
/-
  Region 1, from blocks to the whole array.

  The region computes, on ten blocks of 5000 rows each, out = (agg scaled row by row by the column norm) · W + bias:
  block t of the output is computed from block t of the aggregated features (rows 5000t … 5000t + 4999), block t of
  the norm column (the entries for the same rows), the whole 64 × 64 weight matrix and the whole bias row.

  Every operation involved works row by row: row r of the result depends only on row r of the features, on the entry
  of the column for row r, on all of W and on the bias row. So the block of rows computed at point t is exactly the
  same band of rows of the result computed on the whole arrays, and since the ten blocks tile the 50000 rows, the
  output array ends holding

      addRow (matProd (scaleRows agg norm) W) bias

  of the arrays as the region finds them, whatever they hold.
-/
import proofs.«112754_j67250597921413_1_alg».proof.Proof.Gen.KernelIdeal.Frame
import proofs.«112754_j67250597921413_1_alg».proof.Proof.LibRowOps
import proofs.«112754_j67250597921413_1_alg».proof.Proof.LibRowBand
import Idealize.ShloMosaic.Lib.Pipeline.Value
import Idealize.ShloMosaic.Lib.ValueIdx
import Idealize.ShloMosaic.PureOps.Ideal.Laws

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

/-- The body's result as row operations: the feature block's rows scaled by the column block, times the whole weight
    matrix, plus the bias row. The casts to the same shape are identities, the change of float format on the way into the
    matrix unit is the identity on extended reals, and the matrix unit's product into a zero accumulator is the exact sum. -/
theorem pay (x0 : Vec Ideal S5000x64 .f32) (x1 : Vec Ideal S5000x1 .f32) (x2 : Vec Ideal S64x64 .f32) (x3 : Vec Ideal S1x64 .f32) :
    Gen.k1_pay1 x0 x1 x2 x3 = Cert.RowOps.addRow (Cert.RowOps.matProd (Cert.RowOps.scaleRows (A := 5000) (B := 64) x0 x1) x2) x3 := by
  unfold Gen.k1_pay1
  dsimp only
  rw [shapeCast_self, shapeCast_self, shapeCast_self]
  refine (Cert.RowOps.addf_broadcastTo_row _ _ _).trans ?_
  refine congrArg (fun z => Cert.RowOps.addRow z x3) ?_
  refine (Cert.RowOps.matmul_eq_matProd (A := 5000) (K := 64) (B := 64) dot_S5000x64_S64x64_S5000x64_1_0_0_1_n_n rfl rfl
    (fun _ _ => rfl) (fun _ _ => rfl) (fun _ _ => rfl) (fun _ _ => rfl) none _ _).trans ?_
  exact congrArg (fun z => Cert.RowOps.matProd z x2) (Cert.RowOps.mulf_broadcastTo_col broadcasts_S5000x1_S5000x64 x0 x1)

/-- The zero offsets of a whole-buffer access, as the constant function. -/
theorem hz : (![0, 0] : Fin 2 → Nat) = fun _ => 0 := funext fun a => by fin_cases a <;> rfl

/-- The printed index maps, decided over the ten grid points: the feature window, the column window and the output window
    are at the same block of rows; no window moves along the columns; the weight window and the bias window never move. -/
theorem idx_facts : ∀ t : Fin cfg1.N,
    win1_0.index t (0 : Fin 2) = win1_4.index t (0 : Fin 2)
    ∧ win1_1.index t (0 : Fin 2) = win1_4.index t (0 : Fin 2)
    ∧ win1_0.index t (1 : Fin 2) = 0 ∧ win1_1.index t (1 : Fin 2) = 0 ∧ win1_4.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) ≤ 9 :=
  (by decide +kernel : ∀ t : Fin grid1.N, _)

/-- Every one of the ten blocks of rows is some point's. -/
theorem idx_onto : ∀ q : Fin 10, ∃ t : Fin cfg1.N, win1_4.index t = ![q.val, 0] :=
  (by decide +kernel : ∀ q : Fin 10, ∃ t : Fin grid1.N, win1_4.index t = ![q.val, 0])

/-- Scaling keeps rows: when row p of the block x is row r of the array X, and the column block's entry for row p is the
    column's entry for row r, row p of the scaled block is row r of the scaled array. -/
theorem rowEq_scaleRows {a N K : ℕ} {x : (⟨2, ![a, K]⟩ : Shape).Idx → EReal} {X : (⟨2, ![N, K]⟩ : Shape).Idx → EReal}
    {n : (⟨2, ![a, 1]⟩ : Shape).Idx → EReal} {M : (⟨2, ![N, 1]⟩ : Shape).Idx → EReal} {p : Fin a} {r : Fin N}
    (h : Cert.RowBand.RowEq x X p r) (hn : n (ix2 p (0 : Fin 1)) = M (ix2 r (0 : Fin 1))) :
    Cert.RowBand.RowEq (Cert.RowOps.scaleRows x n) (Cert.RowOps.scaleRows X M) p r := fun k => by
  show x (ix2 p k) * n (ix2 p (0 : Fin 1)) = X (ix2 r k) * M (ix2 r (0 : Fin 1))
  rw [h k, hn]

/-- An output row depends only on the same row of the features and of the column, on the whole weight matrix and on the
    bias row: when row p of the feature block and of the column block are row r of the arrays, row p of the block's result
    is row r of the array's. -/
theorem rowEq_result {a N : ℕ} {x : (⟨2, ![a, 64]⟩ : Shape).Idx → EReal} {X : (⟨2, ![N, 64]⟩ : Shape).Idx → EReal}
    {n : (⟨2, ![a, 1]⟩ : Shape).Idx → EReal} {M : (⟨2, ![N, 1]⟩ : Shape).Idx → EReal} {p : Fin a} {r : Fin N}
    (h : Cert.RowBand.RowEq x X p r) (hn : n (ix2 p (0 : Fin 1)) = M (ix2 r (0 : Fin 1)))
    (w : (⟨2, ![64, 64]⟩ : Shape).Idx → EReal) (b : (⟨2, ![1, 64]⟩ : Shape).Idx → EReal) :
    Cert.RowBand.RowEq (Cert.RowOps.addRow (Cert.RowOps.matProd (Cert.RowOps.scaleRows x n) w) b)
      (Cert.RowOps.addRow (Cert.RowOps.matProd (Cert.RowOps.scaleRows X M) w) b) p r :=
  ((rowEq_scaleRows h hn).matProd w).addRow b

section
variable (V : (c : Dev nD) → (b : Ref sig .tc) → Buf (Elt Ideal) ((c : Thread nD τ).loc b))

/-- The weight window's one block is the whole weight matrix. -/
theorem blk_w (c : Dev nD) (t : Fin cfg1.N) : (Gen.iblk1 V c 2 t : Vec Ideal S64x64 .f32) = V c main_arg3 := by
  obtain ⟨-, -, -, -, -, e5, e6, -, -, -⟩ := idx_facts t
  funext y
  show V c main_arg3 (((cfg1.win 2).blk t).view.emb y) = V c main_arg3 y
  refine congrArg (V c main_arg3) (funext fun a => Fin.ext ?_)
  match a with
  | ⟨0, _⟩ => show win1_2.index t (0 : Fin 2) * 64 + 1 * (y 0).val = (y 0).val; omega
  | ⟨1, _⟩ => show win1_2.index t (1 : Fin 2) * 64 + 1 * (y 1).val = (y 1).val; omega

/-- The bias window's one block is the whole bias row. -/
theorem blk_b (c : Dev nD) (t : Fin cfg1.N) : (Gen.iblk1 V c 3 t : Vec Ideal S1x64 .f32) = V c main_v18 := by
  obtain ⟨-, -, -, -, -, -, -, e7, e8, -⟩ := idx_facts t
  funext y
  show V c main_v18 (((cfg1.win 3).blk t).view.emb y) = V c main_v18 y
  refine congrArg (V c main_v18) (funext fun a => Fin.ext ?_)
  match a with
  | ⟨0, _⟩ => show win1_3.index t (0 : Fin 2) * 1 + 1 * (y 0).val = (y 0).val; omega
  | ⟨1, _⟩ => show win1_3.index t (1 : Fin 2) * 64 + 1 * (y 1).val = (y 1).val; omega

/-- Block t of the features holds rows 5000t … 5000t + 4999 of the aggregated features. -/
theorem blk_x (c : Dev nD) (t : Fin cfg1.N) (p : Fin 5000) (r : Fin 50000) (hr : r.val = win1_4.index t (0 : Fin 2) * 5000 + p.val) :
    Cert.RowBand.RowEq (Gen.iblk1 V c 0 t : Vec Ideal S5000x64 .f32) (V c main_v16) p r := fun k => by
  obtain ⟨e0, -, e2, -, -, -, -, -, -, -⟩ := idx_facts t
  show V c main_v16 (((cfg1.win 0).blk t).view.emb (ix2 p k)) = V c main_v16 (ix2 r k)
  refine congrArg (V c main_v16) (funext fun a => Fin.ext ?_)
  match a with
  | ⟨0, _⟩ => show win1_0.index t (0 : Fin 2) * 5000 + 1 * p.val = r.val; omega
  | ⟨1, _⟩ => show win1_0.index t (1 : Fin 2) * 64 + 1 * k.val = k.val; omega

/-- Block t of the column holds the entries for the same rows. -/
theorem blk_n (c : Dev nD) (t : Fin cfg1.N) (p : Fin 5000) (r : Fin 50000) (hr : r.val = win1_4.index t (0 : Fin 2) * 5000 + p.val) :
    (Gen.iblk1 V c 1 t : Vec Ideal S5000x1 .f32) (ix2 p (0 : Fin 1)) = V c main_v17 (ix2 r (0 : Fin 1)) := by
  obtain ⟨-, e1, -, e3, -, -, -, -, -, -⟩ := idx_facts t
  show V c main_v17 (((cfg1.win 1).blk t).view.emb (ix2 p (0 : Fin 1))) = V c main_v17 (ix2 r (0 : Fin 1))
  refine congrArg (V c main_v17) (funext fun a => Fin.ext ?_)
  match a with
  | ⟨0, _⟩ => show win1_1.index t (0 : Fin 2) * 5000 + 1 * p.val = r.val; omega
  | ⟨1, _⟩ => show win1_1.index t (1 : Fin 2) * 1 + 1 * 0 = 0; omega

/-- What point t writes back is block t of the whole array's result. -/
theorem flushed_eq (c : Dev nD) (t : Fin cfg1.N) :
    (Gen.dat1 (F := Ideal) V c).flushed 4 t = ((cfg1.win 4).blk t).view.read (Elt Ideal)
      (Cert.RowOps.addRow (Cert.RowOps.matProd (Cert.RowOps.scaleRows (A := 50000) (B := 64) (V c main_v16) (V c main_v17)) (V c main_arg3)) (V c main_v18)) := by
  show (cfg1.win 4).cut (grid1.coords t) ((Gen.dat1 (F := Ideal) V c).after 4 t) = _
  rw [Gen.after1_4]
  unfold Gen.out1_4
  rw [View.canon_unit_zero hz]
  simp only [View.ld_unit_zero (S := S5000x64) hz, View.ld_unit_zero (S := S5000x1) hz, View.ld_unit_zero (S := S64x64) hz, View.ld_unit_zero (S := S1x64) hz]
  rw [pay, blk_w, blk_b]
  funext j
  obtain ⟨-, -, -, -, e4, -, -, -, -, e9⟩ := idx_facts t
  have hp : (j 0).val < 5000 := (j 0).isLt
  have hk : (j 1).val < 64 := (j 1).isLt
  have hr : win1_4.index t (0 : Fin 2) * 5000 + (j 0).val < 50000 := by omega
  have hemb : ((cfg1.win 4).blk t).view.emb j
      = (ix2 (⟨win1_4.index t (0 : Fin 2) * 5000 + (j 0).val, hr⟩ : Fin 50000) (⟨(j 1).val, hk⟩ : Fin 64) : S50000x64.Idx) := by
    funext a; apply Fin.ext
    match a with
    | ⟨0, _⟩ => show win1_4.index t (0 : Fin 2) * 5000 + 1 * (j 0).val = win1_4.index t (0 : Fin 2) * 5000 + (j 0).val; omega
    | ⟨1, _⟩ => show win1_4.index t (1 : Fin 2) * 64 + 1 * (j 1).val = (j 1).val; omega
  have hj : j = (ix2 (⟨(j 0).val, hp⟩ : Fin 5000) (⟨(j 1).val, hk⟩ : Fin 64) : S5000x64.Idx) :=
    funext fun a => Fin.ext (by match a with | ⟨0, _⟩ => rfl | ⟨1, _⟩ => rfl)
  have key := rowEq_result (blk_x V c t ⟨(j 0).val, hp⟩ ⟨win1_4.index t (0 : Fin 2) * 5000 + (j 0).val, hr⟩ rfl)
    (blk_n V c t ⟨(j 0).val, hp⟩ ⟨win1_4.index t (0 : Fin 2) * 5000 + (j 0).val, hr⟩ rfl) (V c main_arg3) (V c main_v18) ⟨(j 1).val, hk⟩
  show Cert.RowOps.addRow (Cert.RowOps.matProd (Cert.RowOps.scaleRows (Gen.iblk1 V c 0 t : Vec Ideal S5000x64 .f32) (Gen.iblk1 V c 1 t : Vec Ideal S5000x1 .f32)) (V c main_arg3)) (V c main_v18) j
    = Cert.RowOps.addRow (Cert.RowOps.matProd (Cert.RowOps.scaleRows (A := 50000) (B := 64) (V c main_v16) (V c main_v17)) (V c main_arg3)) (V c main_v18) (((cfg1.win 4).blk t).view.emb j)
  exact (congrArg (Cert.RowOps.addRow (Cert.RowOps.matProd (Cert.RowOps.scaleRows (Gen.iblk1 V c 0 t : Vec Ideal S5000x64 .f32) (Gen.iblk1 V c 1 t : Vec Ideal S5000x1 .f32)) (V c main_arg3)) (V c main_v18)) hj).trans
    (key.trans (congrArg (Cert.RowOps.addRow (Cert.RowOps.matProd (Cert.RowOps.scaleRows (A := 50000) (B := 64) (V c main_v16) (V c main_v17)) (V c main_arg3)) (V c main_v18)) hemb.symm))

/-- An index of the array is in point t's block iff each coordinate is in the block's range on its axis. -/
theorem mem_blk (t : Fin cfg1.N) (i : S50000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v19).slice (win1_4.rect t)).set ↔ _
  rw [View.set_slice_whole, Rect.mem_set_unit]
  exact Iff.rfl

/-- The ten blocks tile the array: row r is in block r / 5000. -/
theorem cover (i : S50000x64.Idx) : ∃ t : Fin cfg1.N, (cfg1.win 4).flush t = true ∧ i ∈ ((cfg1.win 4).blk t).view.set := by
  have hi0 : (i 0).val < 50000 := (i 0).isLt
  have hi1 : (i 1).val < 64 := (i 1).isLt
  obtain ⟨t, ht⟩ := idx_onto ⟨(i 0).val / 5000, by omega⟩
  have q0 : win1_4.index t (0 : Fin 2) = (i 0).val / 5000 := congrFun ht 0
  have q1 : win1_4.index t (1 : Fin 2) = 0 := congrFun ht 1
  refine ⟨t, Gen.flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 64 ≤ (i 1).val ∧ (i 1).val < win1_4.index t (1 : Fin 2) * 64 + 64; omega

/-- After the pipeline has run, whatever the region found, the output array holds the whole arrays' result: the aggregated
    features' rows scaled by the norm column, times the weight matrix, plus the bias row. -/
theorem array (c : Dev nD) :
    (Gen.dat1 (F := Ideal) V c).arrAt 4 cfg1.N
      = Cert.RowOps.addRow (Cert.RowOps.matProd (Cert.RowOps.scaleRows (A := 50000) (B := 64) (V c main_v16) (V c main_v17)) (V c main_arg3)) (V c main_v18) :=
  (Gen.dat1 (F := Ideal) V c).arrAt_eq_of_cover 4 _ (fun t _ => flushed_eq V c t) cover
end

end Cert.KernelIdeal.Region1

end
-- ==== Proof.KernelValue.lean ====
/-
  The idealized kernel program's result as one function of its five arguments.

  With n_s, n_t the inverse square roots of the clipped out- and in-degrees (`invSqrtDeg` of the sources, of the
  targets), the first region leaves  h = x with row r scaled by n_s(r);  the host leaves  g = the rows of h gathered
  along the edges' sources and summed into the edges' target rows (`aggregate`);  the second region leaves
  (g with row r scaled by n_t(r)) · W + b,  b added to every row. Each region's output array is read off its blocks
  as a whole-array function of the arrays the region finds; each array a region finds is read through the host
  operations before it.
-/
import proofs.«112754_j67250597921413_1_alg».proof.Proof.KernelRun
import proofs.«112754_j67250597921413_1_alg».proof.Proof.KernelHost
import proofs.«112754_j67250597921413_1_alg».proof.Proof.Region0
import proofs.«112754_j67250597921413_1_alg».proof.Proof.Region1
import Idealize.ShloMosaic.PureOps.Ideal

noncomputable section

namespace Cert.KernelIdeal.KValue

open Cert.KernelIdeal Cert.KernelIdeal.Gen
open Idealize.ShloMosaic Idealize.ShloMosaic.TcCoe Idealize.SL.Sem Cert.RowOps

/-- The program's result: rows scaled by the source factor, aggregated along the edges, scaled by the target factor,
    multiplied by the weights, the bias added to every row. -/
def kOut (x : (⟨S50000x64, .f32⟩ : BufTy).Contents (Elt Ideal)) (src dst : (⟨S800000, .i32⟩ : BufTy).Contents (Elt Ideal))
    (w : (⟨S64x64, .f32⟩ : BufTy).Contents (Elt Ideal)) (b : (⟨S64, .f32⟩ : BufTy).Contents (Elt Ideal)) :
    (⟨S50000x64, .f32⟩ : BufTy).Contents (Elt Ideal) :=
  addRow (matProd (scaleRows (A := 50000) (B := 64)
      (aggregate (F := Ideal) (scaleRows (A := 50000) (B := 64) x (asColumn (F := Ideal) (invSqrtDeg (F := Ideal) src))) src dst)
      (asColumn (F := Ideal) (invSqrtDeg (F := Ideal) dst))) w) (asRow (F := Ideal) b)

variable (m : (ℓ : Loc nD τ sig) → Buf (Elt Ideal) ℓ) (ρ : Dev nD → PrngReg)

/-- What the first region leaves in its output array: x with every row scaled by the source factor. -/
theorem scaled (c : Dev nD) :
    W6 m ρ c (Proc.devRef .tc main_v12)
      = scaleRows (A := 50000) (B := 64) (m ((c.tc : Thread nD τ).loc main_arg0))
          (asColumn (F := Ideal) (invSqrtDeg (F := Ideal) (m ((c.tc : Thread nD τ).loc main_arg1)))) := by
  have hx : V5 m ρ c main_arg0 = m ((c.tc : Thread nD τ).loc main_arg0) := beforeFirst_x (W0 m ρ c)
  have hn : V5 m ρ c main_v11 = asColumn (F := Ideal) (invSqrtDeg (F := Ideal) (m ((c.tc : Thread nD τ).loc main_arg1))) :=
    beforeFirst_srcColumn (W0 m ρ c)
  refine ((W6_arr (F := Ideal) m ρ c 2).trans (Cert.KernelIdeal.Region0.array (V5 m ρ) c)).trans ?_
  rw [hx, hn]

/-- The last boundary's contents at the result buffer, as the function of the launch contents of the arguments. -/
theorem result (c : Dev nD) :
    W9 m ρ c (Proc.devRef .tc main_v19)
      = kOut (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  have hsrc : W6 m ρ c (Proc.devRef .tc main_arg1) = m ((c.tc : Thread nD τ).loc main_arg1) :=
    (W6_of_ne m ρ c main_arg1 (by decide)).trans (beforeFirst_src (W0 m ρ c))
  have hdst : W6 m ρ c (Proc.devRef .tc main_arg2) = m ((c.tc : Thread nD τ).loc main_arg2) :=
    (W6_of_ne m ρ c main_arg2 (by decide)).trans (beforeFirst_dst (W0 m ρ c))
  have hw : W6 m ρ c (Proc.devRef .tc main_arg3) = m ((c.tc : Thread nD τ).loc main_arg3) :=
    (W6_of_ne m ρ c main_arg3 (by decide)).trans (beforeFirst_w (W0 m ρ c))
  have hb : W6 m ρ c (Proc.devRef .tc main_arg4) = m ((c.tc : Thread nD τ).loc main_arg4) :=
    (W6_of_ne m ρ c main_arg4 (by decide)).trans (beforeFirst_b (W0 m ρ c))
  have hf : W6 m ρ c (Proc.devRef .tc main_v10) = invSqrtDeg (F := Ideal) (m ((c.tc : Thread nD τ).loc main_arg2)) :=
    (W6_of_ne m ρ c main_v10 (by decide)).trans (beforeFirst_dstFactor (W0 m ρ c))
  have e16 : V8 m ρ c main_v16 = aggregate (F := Ideal) (scaleRows (A := 50000) (B := 64) (m ((c.tc : Thread nD τ).loc main_arg0))
        (asColumn (F := Ideal) (invSqrtDeg (F := Ideal) (m ((c.tc : Thread nD τ).loc main_arg1)))))
      (m ((c.tc : Thread nD τ).loc main_arg1)) (m ((c.tc : Thread nD τ).loc main_arg2)) :=
    (between_agg (W6 m ρ c)).trans (by rw [scaled m ρ c, hsrc, hdst])
  have e17 : V8 m ρ c main_v17 = asColumn (F := Ideal) (invSqrtDeg (F := Ideal) (m ((c.tc : Thread nD τ).loc main_arg2))) :=
    (between_column (W6 m ρ c)).trans (by rw [hf])
  have e3 : V8 m ρ c main_arg3 = m ((c.tc : Thread nD τ).loc main_arg3) := (between_w (W6 m ρ c)).trans hw
  have e18 : V8 m ρ c main_v18 = asRow (F := Ideal) (m ((c.tc : Thread nD τ).loc main_arg4)) :=
    (between_row (W6 m ρ c)).trans (by rw [hb])
  refine ((W9_arr (F := Ideal) m ρ c 4).trans (Cert.KernelIdeal.Region1.array (V8 m ρ) c)).trans ?_
  rw [e16, e17, e3, e18]
  rfl

/-- Every weakly fair execution of the idealized kernel program terminates with its result at `kOut` of the
    arguments' launch contents and the arguments unchanged. -/
theorem run : θ_run defs (onTc (τ := τ) (main (F := Ideal))) ⟨m, fun _ => 0, ρ⟩ (fun r => ∀ c : Dev nD,
      r.2.mem ((c.tc : Thread nD τ).loc main_v19)
        = kOut (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result m ρ c), (h c).2⟩) (run_last (F := Ideal) m ρ)

end Cert.KernelIdeal.KValue

end
-- ==== Proof.RefRun.lean ====
import proofs.«112754_j67250597921413_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! # The reference program's run

The reference is one straight line of host operations once its three outlined functions (the clip of the
degree counts, the row gather with its index wrapping and range mask, the select inside it) are written
out at their calls over the buffers each call names. This module lists that line, shows @main equal to
it, reads the line's fold at the result buffer as a named pure term of the five arguments, and states
the run: every execution ends with the result buffer at that term and the arguments as they were. -/

/-- @main's operations in order, the calls written out: eleven operations build the two degree counts
    (ones scatter-added into zeros along each endpoint array); each count is clipped below at one (three
    operations of the clip: the bound converted, broadcast, the maximum) and its inverse square root taken;
    the source-side factor is broadcast along the rows and multiplies the features; the gather's
    twenty-three operations wrap negative indices, mask the indices that name no row, gather the rows and
    put not-a-number where the mask is off; the gathered rows are scatter-added into zeros along the
    targets; the target-side factor multiplies the rows; the dense layer's product and bias end the line. -/
abbrev ops : List (HloOp τ sig (Elt F)) :=
  [ nullary main_cst (constant S_ .f32 0x3F800000#32),
    unary main_cst main_v0 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v1 (broadcastInDim S50000 ![] bcast_S_S50000 : (⟨S_, .f32⟩ : BufTy).Contents (Elt F) → (⟨S50000, .f32⟩ : BufTy).Contents (Elt F)),
    unary main_arg1 main_v2 (broadcastInDim S800000x1 ![0] bcast_S800000_S800000x1_0 : (⟨S800000, .i32⟩ : BufTy).Contents (Elt F) → (⟨S800000x1, .i32⟩ : BufTy).Contents (Elt F)),
    ternary main_v1 main_v2 main_v0 main_v3 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_1 (constant S_ .f32 0x00000000#32),
    unary main_cst_1 main_v4 (broadcastInDim S50000 ![] bcast_S_S50000 : (⟨S_, .f32⟩ : BufTy).Contents (Elt F) → (⟨S50000, .f32⟩ : BufTy).Contents (Elt F)),
    unary main_arg2 main_v5 (broadcastInDim S800000x1 ![0] bcast_S800000_S800000x1_0 : (⟨S800000, .i32⟩ : BufTy).Contents (Elt F) → (⟨S800000x1, .i32⟩ : BufTy).Contents (Elt F)),
    ternary main_v4 main_v5 main_v0 main_v6 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_2 (constant S_ .f32 0x3F800000#32),
    TRef.unary (.of main_cst_2 : TRef sig ⟨S_, .f32⟩) main_call0.v0 id,
    TRef.unary main_call0.v0 main_call0.v1 (broadcastInDim S50000 ![] bcast_S_S50000),
    TRef.binary main_call0.v1 (.of main_v3 : TRef sig ⟨S50000, .f32⟩) main_call0.v2 maximumf,
    unary main_v7 main_v8 (Host.rsqrt : (⟨S50000, .f32⟩ : BufTy).Contents (Elt F) → (⟨S50000, .f32⟩ : BufTy).Contents (Elt F)),
    nullary main_cst_3 (constant S_ .f32 0x3F800000#32),
    TRef.unary (.of main_cst_3 : TRef sig ⟨S_, .f32⟩) main_call1.v0 id,
    TRef.unary main_call1.v0 main_call1.v1 (broadcastInDim S50000 ![] bcast_S_S50000),
    TRef.binary main_call1.v1 (.of main_v6 : TRef sig ⟨S50000, .f32⟩) main_call1.v2 maximumf,
    unary main_v9 main_v10 (Host.rsqrt : (⟨S50000, .f32⟩ : BufTy).Contents (Elt F) → (⟨S50000, .f32⟩ : BufTy).Contents (Elt F)),
    unary main_v8 main_v11 (broadcastInDim S50000x1 ![0] bcast_S50000_S50000x1_0 : (⟨S50000, .f32⟩ : BufTy).Contents (Elt F) → (⟨S50000x1, .f32⟩ : BufTy).Contents (Elt F)),
    unary main_v11 main_v12 (broadcastInDim S50000x64 ![0, 1] bcast_S50000x1_S50000x64_0_1 : (⟨S50000x1, .f32⟩ : BufTy).Contents (Elt F) → (⟨S50000x64, .f32⟩ : BufTy).Contents (Elt F)),
    binary main_arg0 main_v12 main_v13 (mulf : (⟨S50000x64, .f32⟩ : BufTy).Contents (Elt F) → (⟨S50000x64, .f32⟩ : BufTy).Contents (Elt F) → (⟨S50000x64, .f32⟩ : BufTy).Contents (Elt F)),
    TRef.nullary main_call2.c (constantI S_ 32 0#32),
    TRef.unary main_call2.c main_call2.v0 (broadcastInDim S800000 ![] bcast_S_S800000),
    TRef.binary (.of main_arg1 : TRef sig ⟨S800000, .i32⟩) main_call2.v0 main_call2.v1 (cmpi .slt),
    TRef.nullary main_call2.c_0 (constantI S_ 32 50000#32),
    TRef.unary main_call2.c_0 main_call2.v2 (broadcastInDim S800000 ![] bcast_S_S800000),
    TRef.binary (.of main_arg1 : TRef sig ⟨S800000, .i32⟩) main_call2.v2 main_call2.v3 addi,
    TRef.ternary main_call2.v1 main_call2.v3 (.of main_arg1 : TRef sig ⟨S800000, .i32⟩) main_call2.call0.v0 select,
    TRef.unary main_call2.call0.v0 main_call2.v5 (broadcastInDim S800000x1 ![0] bcast_S800000_S800000x1_0),
    TRef.nullary main_call2.c_1 (constantI S1 32 49999#32),
    TRef.nullary main_call2.c_2 (constantI S_ 32 0#32),
    TRef.unary main_call2.c_2 main_call2.v6 (broadcastInDim S800000x1 ![] bcast_S_S800000x1),
    TRef.binary main_call2.v5 main_call2.v6 main_call2.v7 (cmpi .sge),
    TRef.unary main_call2.c_1 main_call2.v8 (broadcastInDim S1x1 ![1] bcast_S1_S1x1_1),
    TRef.unary main_call2.v8 main_call2.v9 (broadcastInDim S800000x1 ![0, 1] bcast_S1x1_S800000x1_0_1),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S800000x1_S800000_d1 h_S_),
    TRef.binary (.of main_v13 : TRef sig ⟨S50000x64, .f32⟩) main_call2.v5 main_call2.v13 (fun x i => Host.gather gather_S50000x64_S800000x1_S800000x64_1_0_n_n_0_1_164 x i),
    TRef.unary main_call2.v12 main_call2.v14 (broadcastInDim S800000x64 ![0] bcast_S800000_S800000x64_0),
    TRef.nullary main_call2.cst (constant S_ .f32 0x7FC00000#32),
    TRef.unary main_call2.cst main_call2.v15 (broadcastInDim S800000x64 ![] bcast_S_S800000x64),
    TRef.ternary main_call2.v14 main_call2.v13 main_call2.v15 main_call2.v16 select,
    nullary main_cst_4 (constant S_ .f32 0x00000000#32),
    unary main_cst_4 main_v15 (broadcastInDim S50000x64 ![] bcast_S_S50000x64 : (⟨S_, .f32⟩ : BufTy).Contents (Elt F) → (⟨S50000x64, .f32⟩ : BufTy).Contents (Elt F)),
    unary main_arg2 main_v16 (broadcastInDim S800000x1 ![0] bcast_S800000_S800000x1_0 : (⟨S800000, .i32⟩ : BufTy).Contents (Elt F) → (⟨S800000x1, .i32⟩ : BufTy).Contents (Elt F)),
    ternary main_v15 main_v16 main_v14 main_v17 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_v10 main_v18 (broadcastInDim S50000x1 ![0] bcast_S50000_S50000x1_0 : (⟨S50000, .f32⟩ : BufTy).Contents (Elt F) → (⟨S50000x1, .f32⟩ : BufTy).Contents (Elt F)),
    unary main_v18 main_v19 (broadcastInDim S50000x64 ![0, 1] bcast_S50000x1_S50000x64_0_1 : (⟨S50000x1, .f32⟩ : BufTy).Contents (Elt F) → (⟨S50000x64, .f32⟩ : BufTy).Contents (Elt F)),
    binary main_v17 main_v19 main_v20 (mulf : (⟨S50000x64, .f32⟩ : BufTy).Contents (Elt F) → (⟨S50000x64, .f32⟩ : BufTy).Contents (Elt F) → (⟨S50000x64, .f32⟩ : BufTy).Contents (Elt F)),
    binary main_v20 main_arg3 main_v21 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg4 main_v22 (broadcastInDim S1x64 ![1] bcast_S64_S1x64_1 : (⟨S64, .f32⟩ : BufTy).Contents (Elt F) → (⟨S1x64, .f32⟩ : BufTy).Contents (Elt F)),
    unary main_v22 main_v23 (broadcastInDim S50000x64 ![0, 1] bcast_S1x64_S50000x64_0_1 : (⟨S1x64, .f32⟩ : BufTy).Contents (Elt F) → (⟨S50000x64, .f32⟩ : BufTy).Contents (Elt F)),
    binary main_v21 main_v23 main_v24 (addf : (⟨S50000x64, .f32⟩ : BufTy).Contents (Elt F) → (⟨S50000x64, .f32⟩ : BufTy).Contents (Elt F) → (⟨S50000x64, .f32⟩ : BufTy).Contents (Elt F)) ]

set_option maxRecDepth 2048 in
/-- @main is that line: the three functions' bodies unfolded at their calls, sequencing reassociated. -/
theorem main_eq (c : Dev nD) : main (F := F) c = seq ops := by
  simp only [main, fn_clip.body, fn_take.body, fn_where.body, seq, bind_assoc, pure_bind]

/-- The signature scopes no buffer and no semaphore. -/
theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨nullary_bufs_sub .., unary_bufs_sub .., nullary_bufs_sub .., unary_bufs_sub .., unary_bufs_sub .., ternary_bufs_sub ..,
    nullary_bufs_sub .., unary_bufs_sub .., unary_bufs_sub .., ternary_bufs_sub .., nullary_bufs_sub .., unary_bufs_sub ..,
    unary_bufs_sub .., binary_bufs_sub .., unary_bufs_sub .., nullary_bufs_sub .., unary_bufs_sub .., unary_bufs_sub ..,
    binary_bufs_sub .., unary_bufs_sub .., unary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub ..,
    unary_bufs_sub .., nullary_bufs_sub .., unary_bufs_sub .., ternary_bufs_sub .., nullary_bufs_sub .., unary_bufs_sub ..,
    unary_bufs_sub .., ternary_bufs_sub .., unary_bufs_sub .., unary_bufs_sub .., binary_bufs_sub .., binary_bufs_sub ..,
    unary_bufs_sub .., unary_bufs_sub .., binary_bufs_sub ..⟩

/-! ## The reference's value as named terms

The reference computes a graph convolution with symmetric degree normalisation. Per endpoint array it
counts, for every node, the edges that name it (a scatter-add of ones into zeros), clips the count below
at one and takes the inverse square root. Each row of the features is scaled by the source-side factor
of its node; along every edge the scaled row of the edge's source is gathered and the gathered rows are
summed into the row of the edge's target; each row of that sum is scaled by the target-side factor of its
node; the result goes through the dense layer: times the weight matrix, plus the bias row. -/

/-- One over the square root of each node's clipped degree: the number of entries of `idx` equal to the
    node (ones scatter-added into zeros), or one where that count is smaller. -/
def invSqrtDeg (idx : (⟨S800000, .i32⟩ : BufTy).Contents (Elt F)) : (⟨S50000, .f32⟩ : BufTy).Contents (Elt F) :=
  Host.rsqrt
    (maximumf (broadcastInDim S50000 ![] bcast_S_S50000 (constant (F := F) S_ .f32 0x3F800000#32))
      (Host.scatterAdd scatter_S50000_S800000x1_S800000_n_0_0_1
        (broadcastInDim S50000 ![] bcast_S_S50000 (constant (F := F) S_ .f32 0x00000000#32))
        (broadcastInDim S800000x1 ![0] bcast_S800000_S800000x1_0 idx)
        (broadcastInDim S800000 ![] bcast_S_S800000 (constant (F := F) S_ .f32 0x3F800000#32))))

/-- The row indices a gather along `src` uses, as a column: an index below zero counts from the end
    (the number of rows, 50000, is added to it), any other is kept. -/
def wrapIdx (src : (⟨S800000, .i32⟩ : BufTy).Contents (Elt F)) : (⟨S800000x1, .i32⟩ : BufTy).Contents (Elt F) :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- Which entries of an index column name a row that exists: at least 0 and at most 49999. -/
def inRange (j : (⟨S800000x1, .i32⟩ : BufTy).Contents (Elt F)) : (⟨S800000, .i1⟩ : BufTy).Contents (Elt F) :=
  Host.reduce IntOp.andi
    (andi (cmpi .sge j (broadcastInDim S800000x1 ![] bcast_S_S800000x1 (constantI S_ 32 0#32)))
      (cmpi .sle j (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- One row of `h` per edge, the row its source names; a row of not-a-number where the source names no row. -/
def takeRows (h : (⟨S50000x64, .f32⟩ : BufTy).Contents (Elt F)) (src : (⟨S800000, .i32⟩ : BufTy).Contents (Elt F)) : (⟨S800000x64, .f32⟩ : BufTy).Contents (Elt F) :=
  select (broadcastInDim S800000x64 ![0] bcast_S800000_S800000x64_0 (inRange (wrapIdx src)))
    (Host.gather gather_S50000x64_S800000x1_S800000x64_1_0_n_n_0_1_164 h (wrapIdx src))
    (broadcastInDim S800000x64 ![] bcast_S_S800000x64 (constant (F := F) S_ .f32 0x7FC00000#32))

/-- Row `n` of the result is the sum, over the edges whose target is `n`, of the row of `h` the edge's
    source names: the gathered rows scatter-added into zeros along `dst`. -/
def aggregate (h : (⟨S50000x64, .f32⟩ : BufTy).Contents (Elt F)) (src dst : (⟨S800000, .i32⟩ : BufTy).Contents (Elt F)) : (⟨S50000x64, .f32⟩ : BufTy).Contents (Elt F) :=
  Host.scatterAdd scatter_S50000x64_S800000x1_S800000x64_1_0_0_1
    (broadcastInDim S50000x64 ![] bcast_S_S50000x64 (constant (F := F) S_ .f32 0x00000000#32))
    (broadcastInDim S800000x1 ![0] bcast_S800000_S800000x1_0 dst)
    (takeRows h src)

/-- The reference's result: the features' rows scaled by the source-side factors, aggregated along the
    edges, the rows scaled by the target-side factors, times the weights, plus the bias in every row. -/
def refOut (x : (⟨S50000x64, .f32⟩ : BufTy).Contents (Elt F)) (src dst : (⟨S800000, .i32⟩ : BufTy).Contents (Elt F)) (w : (⟨S64x64, .f32⟩ : BufTy).Contents (Elt F))
    (b : (⟨S64, .f32⟩ : BufTy).Contents (Elt F)) : (⟨S50000x64, .f32⟩ : BufTy).Contents (Elt F) :=
  addf
    (Host.dotGeneral dot_S50000x64_S64x64_S50000x64_1_0_0_1_n_n none
      (mulf
        (aggregate
          (mulf x (broadcastInDim S50000x64 ![0, 1] bcast_S50000x1_S50000x64_0_1
            (broadcastInDim S50000x1 ![0] bcast_S50000_S50000x1_0 (invSqrtDeg src))))
          src dst)
        (broadcastInDim S50000x64 ![0, 1] bcast_S50000x1_S50000x64_0_1
          (broadcastInDim S50000x1 ![0] bcast_S50000_S50000x1_0 (invSqrtDeg dst))))
      w)
    (broadcastInDim S50000x64 ![0, 1] bcast_S1x64_S50000x64_0_1 (broadcastInDim S1x64 ![1] bcast_S64_S1x64_1 b))

/-- A typed reference's two transports undo each other. -/
theorem ofBuf_toBuf {T : BufTy} (x : TRef sig T) (v : T.Contents (Elt F)) : x.ofBuf (x.toBuf v) = v := by
  obtain ⟨r, h, h2, h3⟩ := x
  subst h
  rfl

attribute [local irreducible] Host.reduce Host.gather Host.scatterAdd Host.rsqrt in
set_option maxRecDepth 8192 in
/-- The operations folded over any contents leave, at the result buffer, `refOut` of the five arguments'
    contents: each operation's result read at its own buffer, the calls' typed buffers read at their types. -/
theorem out_eq (V : Valuation τ sig (Elt F)) :
    after ops V (main_v24 : DevRef τ sig)
      = refOut (V (main_arg0 : DevRef τ sig)) (V (main_arg1 : DevRef τ sig)) (V (main_arg2 : DevRef τ sig))
          (V (main_arg3 : DevRef τ sig)) (V (main_arg4 : DevRef τ sig)) := by
  after_results_simp
  simp only [ofBuf_toBuf]
  simp only [TRef.ofBuf, TRef.toBuf, cast_eq, id_eq]
  rfl

/-! No operation writes an argument's buffer: each keeps its contents. -/

set_option maxRecDepth 8192 in
theorem arg0_eq (V : Valuation τ sig (Elt F)) : after ops V (main_arg0 : DevRef τ sig) = V (main_arg0 : DevRef τ sig) := by
  after_results_simp
set_option maxRecDepth 8192 in
theorem arg1_eq (V : Valuation τ sig (Elt F)) : after ops V (main_arg1 : DevRef τ sig) = V (main_arg1 : DevRef τ sig) := by
  after_results_simp
set_option maxRecDepth 8192 in
theorem arg2_eq (V : Valuation τ sig (Elt F)) : after ops V (main_arg2 : DevRef τ sig) = V (main_arg2 : DevRef τ sig) := by
  after_results_simp
set_option maxRecDepth 8192 in
theorem arg3_eq (V : Valuation τ sig (Elt F)) : after ops V (main_arg3 : DevRef τ sig) = V (main_arg3 : DevRef τ sig) := by
  after_results_simp
set_option maxRecDepth 8192 in
theorem arg4_eq (V : Valuation τ sig (Elt F)) : after ops V (main_arg4 : DevRef τ sig) = V (main_arg4 : DevRef τ sig) := by
  after_results_simp

/-- On every device, for any float values, from any memory with zero counters: every weakly fair execution of
    @main terminates with the result buffer at `refOut` of the five arguments' launch contents and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v24)
          = refOut (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v24).trans (out_eq _),
      (h c main_arg0).trans (arg0_eq _), (h c main_arg1).trans (arg1_eq _), (h c main_arg2).trans (arg2_eq _),
      (h c main_arg3).trans (arg3_eq _), (h c main_arg4).trans (arg4_eq _)⟩)
    (run_seq scopedRefs_eq scopedSems_eq defs main (fun _ => ops) main_eq (fun _ => ops_sub) m ρ)

end Cert.ReferenceIdeal.RefValue

end
-- ==== Proof.RefDense.lean ====
/-
  The reference's two row scalings and its dense layer, as whole-array functions.

  The reference scales the rows of a [50000, 64] matrix g by a vector v of length 50000: it lays v out as a
  [50000, 1] column, repeats that column over the 64 feature positions and multiplies entry by entry, so entry (r, c)
  becomes g(r, c) · v(r). Its dense layer multiplies a [50000, 64] matrix by a [64, 64] weight matrix, contracting the
  one shared axis, lays the bias b of length 64 out as a [1, 64] row, repeats that row over the 50000 rows and adds, so
  entry (r, c) becomes ∑ k, g(r, k) · w(k, c) + b(c). A vector laid out along a new unit axis is the same array as the
  vector recast to that shape, which is how the column and the row are written here.
-/
import proofs.«112754_j67250597921413_1_alg».proof.Proof.Gen.ReferenceIdeal
import proofs.«112754_j67250597921413_1_alg».proof.Proof.LibRowOps
import Idealize.ShloMosaic.PureOps.Ideal.Laws
import Idealize.ShloMosaic.Lib.ValueIdx
import Idealize.ShloMosaic.Lib.Pipeline.Value

noncomputable section

namespace Cert.ReferenceIdeal.Dense

open Cert.ReferenceIdeal Cert.ReferenceIdeal.Facts₀ Idealize.ShloMosaic Idealize.SL.Sem
open Cert.RowOps

/-- The matrix g times the vector v laid out as a column and repeated over the columns of g: every row of g scaled by
    that row's entry of v, the column written as v recast to [50000, 1]. -/
theorem scale_host (hc : (⟨1, ![50000]⟩ : Shape).ShapeCasts ⟨2, ![50000, 1]⟩) (g : FVec Ideal S50000x64 .f32)
    (v : FVec Ideal S50000 .f32) :
    mulf g (broadcastInDim S50000x64 ![0, 1] bcast_S50000x1_S50000x64_0_1
        (broadcastInDim S50000x1 ![0] bcast_S50000_S50000x1_0 v))
      = Cert.RowOps.scaleRows (A := 50000) (B := 64) g (shapeCast ⟨2, ![50000, 1]⟩ v hc) := by
  rw [colCast_eq_bcast hc bcast_S50000_S50000x1_0 v]
  exact mulf_bcastCol bcast_S50000x1_S50000x64_0_1 g _

/-- The reference's product of a [50000, 64] by a [64, 64] matrix is the matrix product: at output entry (r, c) and
    contraction position k the left factor is read at (r, k) and the right factor at (k, c). -/
theorem dot_host (g : FVec Ideal S50000x64 .f32) (w : FVec Ideal S64x64 .f32) :
    Host.dotGeneral (F := Ideal) dot_S50000x64_S64x64_S50000x64_1_0_0_1_n_n none g w
      = Cert.RowOps.matProd (A := 50000) (K := 64) (B := 64) g w :=
  dotGeneral_eq_matProd dot_S50000x64_S64x64_S50000x64_1_0_0_1_n_n rfl rfl (fun _ _ => rfl) (fun _ _ => rfl)
    (fun _ _ => rfl) (fun _ _ => rfl) none .single g w

/-- The dense layer: the matrix product of g and w with the bias b, laid out as a row and repeated over the rows,
    added: the bias row added to every row of the product, the row written as b recast to [1, 64]. -/
theorem dense_host (hc : (⟨1, ![64]⟩ : Shape).ShapeCasts ⟨2, ![1, 64]⟩) (g : FVec Ideal S50000x64 .f32)
    (w : FVec Ideal S64x64 .f32) (b : FVec Ideal S64 .f32) :
    addf (Host.dotGeneral (F := Ideal) dot_S50000x64_S64x64_S50000x64_1_0_0_1_n_n none g w)
        (broadcastInDim S50000x64 ![0, 1] bcast_S1x64_S50000x64_0_1 (broadcastInDim S1x64 ![1] bcast_S64_S1x64_1 b))
      = Cert.RowOps.addRow (Cert.RowOps.matProd g w) (shapeCast ⟨2, ![1, 64]⟩ b hc) := by
  rw [rowCast_eq_bcast hc bcast_S64_S1x64_1 b, dot_host]
  exact addf_bcastRow bcast_S1x64_S50000x64_0_1 _ _

end Cert.ReferenceIdeal.Dense

end
-- ==== Proof.Bridge.lean ====
/-
  The two idealized programs compute one function.

  Both programs count degrees, clip, take inverse square roots, gather along edges and scatter-add with the same
  host operations on the same arguments, so those parts are the same functions (`factor_eq`, `aggregate_eq`: the
  two spellings differ only in which copy of the dimension records and side-condition proofs they cite). Where the
  reference multiplies by a factor broadcast from a vector to a column to the full shape, the kernel program's regions
  scale every row by the factor laid out as a column; where the reference contracts with the weights and adds the
  bias broadcast to the full shape, the second region multiplies each block of rows by the weights and adds the bias
  row. As whole arrays these are the same row operations: no law of arithmetic beyond the definitions is used, so
  no finiteness of the inputs is needed.
-/
import proofs.«112754_j67250597921413_1_alg».proof.Proof.KernelValue
import proofs.«112754_j67250597921413_1_alg».proof.Proof.RefRun
import proofs.«112754_j67250597921413_1_alg».proof.Proof.RefDense

noncomputable section

namespace Cert.GraphConv

open Idealize.ShloMosaic Idealize.SL.Sem Cert.RowOps

attribute [local irreducible] Host.scatterAdd Host.gather Host.reduce Host.rsqrt in
/-- The degree factor is one function in both programs. -/
theorem factor_eq : @Cert.ReferenceIdeal.RefValue.invSqrtDeg Ideal _ = @Cert.KernelIdeal.KValue.invSqrtDeg Ideal _ := rfl

attribute [local irreducible] Host.scatterAdd Host.gather Host.reduce Host.rsqrt in
/-- The aggregation along the edges is one function in both programs. -/
theorem aggregate_eq : @Cert.ReferenceIdeal.RefValue.aggregate Ideal _ = @Cert.KernelIdeal.KValue.aggregate Ideal _ := rfl

attribute [local irreducible] Host.scatterAdd Host.gather Host.reduce Host.rsqrt in
/-- The reference's result is the kernel program's result, as functions of the five arguments. -/
theorem out_eq (x : FVec Ideal Cert.KernelIdeal.S50000x64 .f32) (s d : IVec Cert.KernelIdeal.S800000 32)
    (w : FVec Ideal Cert.KernelIdeal.S64x64 .f32) (b : FVec Ideal Cert.KernelIdeal.S64 .f32) :
    Cert.ReferenceIdeal.RefValue.refOut (F := Ideal) x s d w b = Cert.KernelIdeal.KValue.kOut x s d w b := by
  unfold Cert.ReferenceIdeal.RefValue.refOut
  rw [Cert.ReferenceIdeal.Dense.scale_host Cert.KernelIdeal.Gen.shapeCasts_S50000_S50000x1,
    Cert.ReferenceIdeal.Dense.scale_host Cert.KernelIdeal.Gen.shapeCasts_S50000_S50000x1,
    Cert.ReferenceIdeal.Dense.dense_host Cert.KernelIdeal.Gen.shapeCasts_S64_S1x64,
    factor_eq, aggregate_eq]
  rfl

end Cert.GraphConv

end
-- ==== Proof.lean ====
/-
  A graph convolution with both-sided degree normalisation,  out = D_in^{-1/2} · A · D_out^{-1/2} · x · W + b,  on
  50000 nodes with 64 features and 800000 edges: the kernel program against its reference, as extended reals.

  Both programs count out- and in-degrees by a scatter-add of ones, clip them below at one and take inverse square
  roots; both gather the scaled rows along the edges' sources and scatter-add them into the edges' target rows on the
  host. The kernel program does the two row scalings and the dense layer in two blocked regions of ten blocks of
  5000 rows; the reference does them with whole-array host operations.

  The frames of the two kernel programs are the generated ones; the reference's frame is its run with the result
  dropped. The idealization rewrote nothing, so there is nothing to preserve. For the values: the kernel program's
  result buffer ends at one whole-array function of the arguments (rows scaled, aggregated, scaled again, multiplied
  by the weights, the bias row added), the reference's at its composed host term, and the two are the same function:
  the shared host parts literally, the blocked parts because a block of rows of the result depends only on the same
  rows of the operands.
-/
import proofs.«112754_j67250597921413_1_alg».proof.Defs
import proofs.«112754_j67250597921413_1_alg».proof.Proof.Gen.Kernel
import proofs.«112754_j67250597921413_1_alg».proof.Proof.Gen.Kernel.Skeleton
import proofs.«112754_j67250597921413_1_alg».proof.Proof.Gen.Kernel.Launch
import proofs.«112754_j67250597921413_1_alg».proof.Proof.Gen.Kernel.Points
import proofs.«112754_j67250597921413_1_alg».proof.Proof.Gen.Kernel.Frame
import proofs.«112754_j67250597921413_1_alg».proof.Proof.Gen.KernelIdeal
import proofs.«112754_j67250597921413_1_alg».proof.Proof.Gen.KernelIdeal.Skeleton
import proofs.«112754_j67250597921413_1_alg».proof.Proof.Gen.KernelIdeal.Launch
import proofs.«112754_j67250597921413_1_alg».proof.Proof.Gen.KernelIdeal.Points
import proofs.«112754_j67250597921413_1_alg».proof.Proof.Gen.KernelIdeal.Frame
import proofs.«112754_j67250597921413_1_alg».proof.Proof.Gen.ReferenceIdeal
import proofs.«112754_j67250597921413_1_alg».proof.Proof.Gen.Pre_finite_inputs
import proofs.«112754_j67250597921413_1_alg».proof.Proof.KernelValue
import proofs.«112754_j67250597921413_1_alg».proof.Proof.RefRun
import proofs.«112754_j67250597921413_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, with the result's value dropped. -/
theorem frame_referenceIdeal : Cert.frame_ReferenceIdeal := fun m ρ _ =>
  (θ_run Cert.ReferenceIdeal.defs _ _).mono (fun _ h c => (h c).2) (Cert.ReferenceIdeal.RefValue.run (F := Ideal) m ρ)

/-- The idealization rewrote no operation. -/
theorem preserves : Cert.preserves_Kernel_KernelIdeal := trivial

/-- From memories agreeing on the arguments the kernel program's result buffer ends at its whole-array function of
    the arguments and the reference's at its composed host term of the same arguments: one function. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.RefValue.run (F := Ideal) m' ρ')
  rw [(hagree c).1, (hagree c).2.1, (hagree c).2.2.1, (hagree c).2.2.2.1, (hagree c).2.2.2.2]
  exact Cert.GraphConv.out_eq _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
